-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2048x512 : Shape := ⟨2, ![2048, 512]⟩
abbrev S50000x2048 : Shape := ⟨2, ![50000, 2048]⟩
abbrev S512x512 : Shape := ⟨2, ![512, 512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S50000x2048 : S_.BroadcastsInDim S50000x2048 (![] : Fin 0 → Fin S50000x2048.rank)
  reducesTo_S50000x2048_S_d0_1 : S50000x2048.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S50000x512 .f32) (main_arg1 : FVec F S2048x512 .f32) (main_arg2 : FVec F S50000x2048 .f32) (main_arg3 : FVec F S512x512 .f32) (main_arg4 : FVec F S512x512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S50000x2048 .f32 := Host.absf main_arg2
  let main_cst_2 : FVec F S_ .f32 := constant S_ .f32 0x7F800000#32
  let main_v10 : FVec F S50000x2048 .f32 := broadcastInDim S50000x2048 ![] bcast_S_S50000x2048 main_cst_2
  let main_v11 : IVec S50000x2048 1 := cmpf .olt main_v9 main_v10
  let main_c_3 : IVec S_ 1 := constantI S_ 1 1#1
  let main_v12 : IVec S_ 1 := (fun x v => Host.reduce IntOp.andi x v reducesTo_S50000x2048_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S50000x512 : Shape := ⟨2, ![50000, 512]⟩
abbrev S2048x512 : Shape := ⟨2, ![2048, 512]⟩
abbrev S50000x2048 : Shape := ⟨2, ![50000, 2048]⟩
abbrev S512x512 : Shape := ⟨2, ![512, 512]⟩
abbrev S800x2048 : Shape := ⟨2, ![800, 2048]⟩
abbrev S800x512 : Shape := ⟨2, ![800, 512]⟩

abbrev nBuf : Space → Nat
  | .hbm => 7
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S2048x512, .f32⟩
  | .hbm, ⟨2, _⟩ => ⟨S50000x2048, .f32⟩
  | .hbm, ⟨3, _⟩ => ⟨S512x512, .f32⟩
  | .hbm, ⟨4, _⟩ => ⟨S512x512, .f32⟩
  | .hbm, ⟨5, _⟩ => ⟨S2048x512, .f32⟩
  | .hbm, ⟨6, _⟩ => ⟨S50000x512, .f32⟩
  | .local _ .vmem, ⟨0, _⟩ => ⟨S2048x512, .f32⟩
  | .local _ .vmem, ⟨1, _⟩ => ⟨S512x512, .f32⟩
  | .local _ .vmem, ⟨2, _⟩ => ⟨S2048x512, .f32⟩
  | .local _ .vmem, ⟨3, _⟩ => ⟨S800x2048, .f32⟩
  | .local _ .vmem, ⟨4, _⟩ => ⟨S800x2048, .f32⟩
  | .local _ .vmem, ⟨5, _⟩ => ⟨S800x512, .f32⟩
  | .local _ .vmem, ⟨6, _⟩ => ⟨S800x512, .f32⟩
  | .local _ .vmem, ⟨7, _⟩ => ⟨S512x512, .f32⟩
  | .local _ .vmem, ⟨8, _⟩ => ⟨S512x512, .f32⟩
  | .local _ .vmem, ⟨9, _⟩ => ⟨S2048x512, .f32⟩
  | .local _ .vmem, ⟨10, _⟩ => ⟨S800x512, .f32⟩
  | .local _ .vmem, ⟨11, _⟩ => ⟨S800x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![63], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S800x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S800x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S800x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  inb_S800x512_S800x512_0_0 : ∀ a, (![0, 0] : Fin 2 → Nat) a + S800x512.size a ≤ S800x512.size a
  h_S800x512 : 0 < S800x512.numel
  bitsLt_bf16_f32 : FTy.bits .bf16 < FTy.bits .f32
  inb_S800x2048_S800x2048_0_0 : ∀ a, (![0, 0] : Fin 2 → Nat) a + S800x2048.size a ≤ S800x2048.size a
  h_S800x2048 : 0 < S800x2048.numel
  shapeCasts_S2048x512_S2048x512 : S2048x512.ShapeCasts S2048x512
  dot_S2048x512_S512x512_S2048x512_1_0_0_1_n_n_wf : DotDims.WF S2048x512 S512x512 S2048x512 [1] [0] [0] [1] [] []
  dot_S800x512_S512x512_S800x512_1_0_0_1_n_n_wf : DotDims.WF S800x512 S512x512 S800x512 [1] [0] [0] [1] [] []
  dot_S800x2048_S2048x512_S800x512_1_0_0_1_n_n_wf : DotDims.WF S800x2048 S2048x512 S800x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x512.size a
  hwx0_0 : ∀ i : grid0.Coords, EltTy.bits .f32 = 32 ∨ (Rect.block (s := S2048x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .f32 = 32 ∨ (Rect.block (s := S2048x512) S2048x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S800x2048.size a < S50000x2048.size a
  hwx1_0 : ∀ i : grid1.Coords, EltTy.bits .f32 = 32 ∨ (Rect.unit (s := S50000x2048) (fun a => cc1_transform_0 i a * S800x2048.size a) (fun a => (Pipeline.Clip.of (cc1_transform_0 i a) (S800x2048.size a) (S50000x2048.size a)).extent (S800x2048.size a)) fun a => Pipeline.Clip.inb (Pipeline.Clip.ok_of (hstart1_0 i a))).WholeWords (EltTy.packing .f32)
  hwxs1_0 : ∀ i : grid1.Coords, EltTy.bits .f32 = 32 ∨ (Rect.unit (s := S800x2048) (fun _ => 0) (fun a => (Pipeline.Clip.of (cc1_transform_0 i a) (S800x2048.size a) (S50000x2048.size a)).extent (S800x2048.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S800x512.size a < S50000x512.size a
  hwx1_1 : ∀ i : grid1.Coords, EltTy.bits .f32 = 32 ∨ (Rect.unit (s := S50000x512) (fun a => cc1_transform_1 i a * S800x512.size a) (fun a => (Pipeline.Clip.of (cc1_transform_1 i a) (S800x512.size a) (S50000x512.size a)).extent (S800x512.size a)) fun a => Pipeline.Clip.inb (Pipeline.Clip.ok_of (hstart1_1 i a))).WholeWords (EltTy.packing .f32)
  hwxs1_1 : ∀ i : grid1.Coords, EltTy.bits .f32 = 32 ∨ (Rect.unit (s := S800x512) (fun _ => 0) (fun a => (Pipeline.Clip.of (cc1_transform_1 i a) (S800x512.size a) (S50000x512.size a)).extent (S800x512.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x512.size a ≤ S2048x512.size a
  hwx1_4 : ∀ i : grid1.Coords, EltTy.bits .f32 = 32 ∨ (Rect.block (s := S2048x512) S2048x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S800x512.size a < S50000x512.size a
  hwx1_5 : ∀ i : grid1.Coords, EltTy.bits .f32 = 32 ∨ (Rect.unit (s := S50000x512) (fun a => cc1_transform_5 i a * S800x512.size a) (fun a => (Pipeline.Clip.of (cc1_transform_5 i a) (S800x512.size a) (S50000x512.size a)).extent (S800x512.size a)) fun a => Pipeline.Clip.inb (Pipeline.Clip.ok_of (hstart1_5 i a))).WholeWords (EltTy.packing .f32)
  hwxs1_5 : ∀ i : grid1.Coords, EltTy.bits .f32 = 32 ∨ (Rect.unit (s := S800x512) (fun _ => 0) (fun a => (Pipeline.Clip.of (cc1_transform_5 i a) (S800x512.size a) (S50000x512.size a)).extent (S800x512.size a)) fun a => (Nat.zero_add _).trans_le (Pipeline.Clip.extent_le (Pipeline.Clip.ok_of (hstart1_5 i a)))).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S800x512_S512x512_S800x512_1_0_0_1_n_n : DotDims S800x512 S512x512 S800x512 where
  lhsContracting := [1]
  rhsContracting := [0]
  lhsNonContracting := [0]
  rhsNonContracting := [1]
  lhsBatch := []
  rhsBatch := []
  wf := dot_S800x512_S512x512_S800x512_1_0_0_1_n_n_wf
def dot_S800x2048_S2048x512_S800x512_1_0_0_1_n_n : DotDims S800x2048 S2048x512 S800x512 where
  lhsContracting := [1]
  rhsContracting := [0]
  lhsNonContracting := [0]
  rhsNonContracting := [1]
  lhsBatch := []
  rhsBatch := []
  wf := dot_S800x2048_S2048x512_S800x512_1_0_0_1_n_n_wf

abbrev win0_0 : Pipeline.Window sig grid0 :=
  Pipeline.Window.ofSpec (Memref.whole main_arg1) S2048x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_arg2) S800x2048.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_arg0) S800x512.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_arg3) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S2048x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpecClip (Memref.whole main_v1) S800x512.size cc1_transform_5 reads1_5 true false 2 stage1_5 sem1_5
    hrank1 hreads1_5 hstart1_5 nbuf1_5 (Memref.isWhole_whole _) hwx1_5 hwxs1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x512 : Shape := ⟨2, ![50000, 512]⟩
abbrev S2048x512 : Shape := ⟨2, ![2048, 512]⟩
abbrev S50000x2048 : Shape := ⟨2, ![50000, 2048]⟩
abbrev S512x512 : Shape := ⟨2, ![512, 512]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2048x512, .f32⟩
  | .hbm, ⟨2, _⟩ => ⟨S50000x2048, .f32⟩
  | .hbm, ⟨3, _⟩ => ⟨S512x512, .f32⟩
  | .hbm, ⟨4, _⟩ => ⟨S512x512, .f32⟩
  | .hbm, ⟨5, _⟩ => ⟨S2048x512, .f32⟩
  | .hbm, ⟨6, _⟩ => ⟨S50000x512, .f32⟩
  | .hbm, ⟨7, _⟩ => ⟨S50000x512, .f32⟩
  | .hbm, ⟨8, _⟩ => ⟨S50000x512, .f32⟩
  | .hbm, ⟨9, _⟩ => ⟨S50000x512, .f32⟩
  | .hbm, ⟨10, _⟩ => ⟨S_, .f32⟩
  | .hbm, ⟨11, _⟩ => ⟨S50000x512, .f32⟩
  | .hbm, ⟨12, _⟩ => ⟨S50000x512, .i1⟩
  | .hbm, ⟨13, _⟩ => ⟨S_, .f32⟩
  | .hbm, ⟨14, _⟩ => ⟨S50000x512, .f32⟩
  | .hbm, ⟨15, _⟩ => ⟨S50000x512, .i1⟩
  | .hbm, ⟨16, _⟩ => ⟨S_, .f32⟩
  | .hbm, ⟨17, _⟩ => ⟨S_, .f32⟩
  | .hbm, ⟨18, _⟩ => ⟨S50000x512, .f32⟩
  | .hbm, ⟨19, _⟩ => ⟨S50000x512, .f32⟩
  | .hbm, ⟨20, _⟩ => ⟨S50000x512, .f32⟩
  | .hbm, ⟨21, _⟩ => ⟨S_, .f32⟩
  | .hbm, ⟨22, _⟩ => ⟨S50000x512, .f32⟩
  | .hbm, ⟨23, _⟩ => ⟨S50000x512, .f32⟩
  | .hbm, ⟨24, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_cst_1 : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_v4 : Ref sig .tc := ⟨.hbm, 19, rfl⟩
abbrev main_call0_v5 : Ref sig .tc := ⟨.hbm, 20, rfl⟩
abbrev main_call0_cst_2 : Ref sig .tc := ⟨.hbm, 21, rfl⟩
abbrev main_call0_v6 : Ref sig .tc := ⟨.hbm, 22, rfl⟩
abbrev main_call0_v7 : Ref sig .tc := ⟨.hbm, 23, rfl⟩
abbrev main_v5 : Ref sig .tc := ⟨.hbm, 24, rfl⟩

abbrev nD : Nat := 1
abbrev τ : Topo := Topo.v7x

variable {F : FTy → Type} [FloatOps F]

class Facts₀ : Prop where
  bcast_S_S50000x512 : S_.BroadcastsInDim S50000x512 (![] : Fin 0 → Fin S50000x512.rank)
  dot_S2048x512_S512x512_S2048x512_1_0_0_1_n_n_wf : DotDims.WF S2048x512 S512x512 S2048x512 [1] [0] [0] [1] [] []
  dot_S50000x512_S512x512_S50000x512_1_0_0_1_n_n_wf : DotDims.WF S50000x512 S512x512 S50000x512 [1] [0] [0] [1] [] []
  dot_S50000x2048_S2048x512_S50000x512_1_0_0_1_n_n_wf : DotDims.WF S50000x2048 S2048x512 S50000x512 [1] [0] [0] [1] [] []

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x2048_S2048x512_S50000x512_1_0_0_1_n_n : DotDims S50000x2048 S2048x512 S50000x512 where
  lhsContracting := [1]
  rhsContracting := [0]
  lhsNonContracting := [0]
  rhsNonContracting := [1]
  lhsBatch := []
  rhsBatch := []
  wf := dot_S50000x2048_S2048x512_S50000x512_1_0_0_1_n_n_wf

class Facts : Prop extends Facts₀ where

variable [Facts]
-- ==== Proof.KBody0.lean ====
/-
  Region 0 (the product kc · w1 as one block): what the kernel body does to its three staging buffers.
  The body loads the whole [2048, 512] block of kc and the whole [512, 512] block of w1, forms their matrix product into
  a zero accumulator, and stores it over the whole [2048, 512] output block. So after the body the two input buffers hold
  what they held and the output buffer holds that product, whatever it held before. Stated for any float instance.
-/
import proofs.«156019_j41996190220783_2_alg».proof.Proof.Gen.Kernel.Launch
import proofs.«156019_j41996190220783_2_alg».proof.Proof.Gen.Kernel.Skeleton
import proofs.«156019_j41996190220783_2_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole [2048, 512] block as a rectangle, and the whole [512, 512] block. -/
abbrev rK : Rect S2048x512 := Rect.unit (s := S2048x512) ![0, 0] S2048x512.size inb_S2048x512_S2048x512_0_0
abbrev rW : Rect S512x512 := Rect.unit (s := S512x512) ![0, 0] S512x512.size inb_S512x512_S512x512_0_0

/-- What the output buffer holds after the body: the one store, of the product of the two loaded blocks. -/
def out0 (x0 : Vec F S2048x512 .f32) (x1 : Vec F S512x512 .f32) : Vec F S2048x512 .f32 :=
  View.canon [⟨rK, k0_pay1 (View.ld x0 rK) (View.ld x1 rW)⟩]

/-- The one store covers the output block. -/
theorem cover0 (p0 : Vec F S2048x512 .f32) (y : S2048x512.Idx) :
    ∃ pc ∈ ([⟨rK, p0⟩] : List (View.Piece (Elt F) S2048x512 .f32)), y ∈ pc.1.set :=
  View.cover_of_tiled [⟨rK, p0⟩] S2048x512.size (by rfl) y

set_option maxHeartbeats 1000000 in
/-- The body on whole staging buffers: the inputs at `x0`, `x1`, the output at anything; it ends with the inputs as
    they were and the output at `out0 x0 x1`. -/
theorem sound_kernel0 (c : Dev nD) (E : Set ℕ) (i : grid0.Coords)
    (arg1 : Memref sig .tc .vmem S2048x512 .f32) (harg1 : arg1.IsWhole) (arg2 : Memref sig .tc .vmem S512x512 .f32) (harg2 : arg2.IsWhole)
    (arg3 : Memref sig .tc .vmem S2048x512 .f32) (harg3 : arg3.IsWhole)
    (x0 : Vec F S2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__kc_wh_kernel i arg1 harg1 arg2 harg2 arg3 harg3) K := by
  simp only [cc0__kc_wh_kernel_eq_skeleton]; unfold cc0__kc_wh_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

end Cert.Kernel.Body

end
-- ==== Proof.KBody1.lean ====
/-
  Region 1 (one block of 800 rows of the result): what the kernel body does to its six staging buffers.
  The body loads the whole [800, 2048] block of adj, the whole [800, 512] block of ex, the whole w1, w2 and the whole
  [2048, 512] product kc · w1, computes ELU of (adj-block · (kc · w1)) times ((ex-block · w1) · w2) entry by entry,
  and stores it over the whole [800, 512] output block. So after the body the five input buffers hold what they held and
  the output buffer holds that block, whatever it held before. Stated for any float instance.
-/
import proofs.«156019_j41996190220783_2_alg».proof.Proof.KBody0

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole [800, 2048] block and the whole [800, 512] block as rectangles. -/
abbrev rA : Rect S800x2048 := Rect.unit (s := S800x2048) ![0, 0] S800x2048.size inb_S800x2048_S800x2048_0_0
abbrev rE : Rect S800x512 := Rect.unit (s := S800x512) ![0, 0] S800x512.size inb_S800x512_S800x512_0_0

/-- What the output buffer holds after the body: the one store, of the payload of the five loaded blocks
    (`xA` the adj block, `xE` the ex block, `xW1`, `xW2`, and `xK` the product kc · w1). -/
def out1 (xA : Vec F S800x2048 .f32) (xE : Vec F S800x512 .f32) (xW1 xW2 : Vec F S512x512 .f32) (xK : Vec F S2048x512 .f32) :
    Vec F S800x512 .f32 :=
  View.canon [⟨rE, k1_pay1 (View.ld xE rE) (View.ld xW1 rW) (View.ld xW2 rW) (View.ld xA rA) (View.ld xK rK)⟩]

/-- The one store covers the output block. -/
theorem cover1 (p0 : Vec F S800x512 .f32) (y : S800x512.Idx) :
    ∃ pc ∈ ([⟨rE, p0⟩] : List (View.Piece (Elt F) S800x512 .f32)), y ∈ pc.1.set :=
  View.cover_of_tiled [⟨rE, p0⟩] S800x512.size (by rfl) y

set_option maxHeartbeats 1000000 in
/-- The body on whole staging buffers: the five inputs at given contents, the output at anything; it ends with the
    inputs as they were and the output at `out1` of them. -/
theorem sound_kernel1 (c : Dev nD) (E : Set ℕ) (i : grid1.Coords)
    (arg1 : Memref sig .tc .vmem S800x2048 .f32) (harg1 : arg1.IsWhole) (arg2 : Memref sig .tc .vmem S800x512 .f32) (harg2 : arg2.IsWhole)
    (arg3 : Memref sig .tc .vmem S512x512 .f32) (harg3 : arg3.IsWhole) (arg4 : Memref sig .tc .vmem S512x512 .f32) (harg4 : arg4.IsWhole)
    (arg5 : Memref sig .tc .vmem S2048x512 .f32) (harg5 : arg5.IsWhole) (arg6 : Memref sig .tc .vmem S800x512 .f32) (harg6 : arg6.IsWhole)
    (xA : Vec F S800x2048 .f32) (xE : Vec F S800x512 .f32) (xW1 xW2 : Vec F S512x512 .f32) (xK : Vec F S2048x512 .f32) (K : PUnit → sProp 𝕄) :
    iprop(owns (c : Thread nD τ) arg1 fullShare xA ∗ owns (c : Thread nD τ) arg2 fullShare xE ∗ owns (c : Thread nD τ) arg3 fullShare xW1
        ∗ owns (c : Thread nD τ) arg4 fullShare xW2 ∗ owns (c : Thread nD τ) arg5 fullShare xK ∗ (∃ d, owns (c : Thread nD τ) arg6 fullShare d)
        ∗ (iprop(owns (c : Thread nD τ) arg1 fullShare xA ∗ owns (c : Thread nD τ) arg2 fullShare xE ∗ owns (c : Thread nD τ) arg3 fullShare xW1
            ∗ owns (c : Thread nD τ) arg4 fullShare xW2 ∗ owns (c : Thread nD τ) arg5 fullShare xK
            ∗ owns (c : Thread nD τ) arg6 fullShare (out1 xA xE xW1 xW2 xK)) -∗ K ⟨⟩))
      ⊢ wp frame (wpE (defs₀ (F := F)) Variants.none c none) E (cc1__gconv_kernel i arg1 harg1 arg2 harg2 arg3 harg3 arg4 harg4 arg5 harg5 arg6 harg6) K := by
  simp only [cc1__gconv_kernel_eq_skeleton]; unfold cc1__gconv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

end Cert.Kernel.Body

end
-- ==== Proof.KFrame.lean ====
/-
  The frame of the word-level program: every execution of @main terminates and leaves the five argument arrays as
  launched. @main is two kernel regions. Region 0 (one grid point, whole windows) forms the product kc · w1 into the
  intermediate array; its proof data are exact, so the intermediate array's contents on leaving the region are named.
  Region 1 (63 grid points, the last blocks of three windows overhanging their arrays) reads that array and writes the
  result array; a frame says nothing of what the staging buffers hold, so its proof data constrain nothing of them:
  every window's buffer is handed to the body at some contents and taken back at some contents. An input window's
  array is never written back, so the arguments end as they began; only the intermediate and the result array change.
-/
import proofs.«156019_j41996190220783_2_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # Region 0: the product kc · w1, one grid point, at the launch contents -/

/-- Core `c`'s buffers at launch. -/
abbrev W0 : Dev nD → Valuation τ sig (Elt F) := fun c b => m ((c : Dev nD), b)
/-- The same read at the TensorCore's references. -/
abbrev V0 : (c : Dev nD) → (b : Ref sig .tc) → Buf (Elt F) ((c : Thread nD τ).loc b) := fun c b => W0 m c b

/-- Window `w`'s block at point `t`, read off its array at the launch contents. -/
def iblk0 (c : Dev nD) (w : Fin cfg0.W) (t : Fin cfg0.N) : ((cfg0.win w).xblock (cfg0.grid.coords t)).Idx → Elt F (cfg0.win w).elt :=
  ((cfg0.win w).blk t).view.read (Elt F) (V0 m c (Pipeline.arrRef spec0 w))

/-- Region 0's proof data on core `c`: the arrays at the launch contents; after the body each input's buffer at its
    block and the output's at the product of the two blocks; the invariant the scoped rest and the generator register;
    nothing owed; full shares. -/
def dat0 (c : Dev nD) : Dat τ (Elt F) Unit ℕ (UR sig nD τ) ℕ cfg0 c where
  A w := V0 m c (Pipeline.arrRef spec0 w)
  after w t := match w with
    | ⟨0, _⟩ => iblk0 m c 0 t
    | ⟨1, _⟩ => iblk0 m c 1 t
    | ⟨2, _⟩ => Body.out0 (iblk0 m c 0 t) (iblk0 m c 1 t)
  Φ _ := Pipeline.ΦA spec0 c
  q _ := fullShare
  owed _ := 0

theorem A_eq0 (c : Dev nD) (w : Fin cfg0.W) : (dat0 m c).A w = V0 m c (Pipeline.arrRef spec0 w) := by
  dsimp only [dat0]

theorem after0_0 (c : Dev nD) (t : Fin cfg0.N) : (dat0 m c).after 0 t = iblk0 m c 0 t := by dsimp only [dat0]
theorem after0_1 (c : Dev nD) (t : Fin cfg0.N) : (dat0 m c).after 1 t = iblk0 m c 1 t := by dsimp only [dat0]
theorem after0_2 (c : Dev nD) (t : Fin cfg0.N) : (dat0 m c).after 2 t = Body.out0 (iblk0 m c 0 t) (iblk0 m c 1 t) := by dsimp only [dat0]

/-- An input window's current buffer holds its block at every point: the window is whole, never idle, and the body
    leaves the block in place. -/
theorem before0_0 (c : Dev nD) (t : Fin cfg0.N) (d) : (dat0 m c).before 0 t d = iblk0 m c 0 t :=
  ((dat0 m c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 m c).before 1 t d = iblk0 m c 1 t :=
  ((dat0 m c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d)))

/-- and what it returns. -/
def bodyPost0 (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t))

/-- The body at any point: the inputs' buffers hold their blocks, so the body's triple applies; the invariant and the
    core's dues pass through unread. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1]
  rw [show (dat0 m c).Φ t.succ = (dat0 m c).Φ t.castSucc from rfl,
    show (dat0 m c).owesAt () t.succ = (dat0 m c).owesAt () t.castSucc from rfl,
    after0_0, after0_1, after0_2]
  iintro ⟨HΦ, Ho, ⟨%d0, H0⟩, ⟨%d1, H1⟩, ⟨%d2, H2⟩⟩
  iapply (Body.sound_kernel0 c Set.univ _ _ _ _ _ _ _ (iblk0 m c 0 t) (iblk0 m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation0 (c : Dev nD) : BodyObligation (dat0 (F := F) m c) (defs₀ (F := F)) Variants.none () Set.univ := fun t => by
  rw [bigSep_W0, bigSep_W0]
  exact sound_body0 m c t

/-! # Between the regions: the buffers' contents when region 0 is left -/

/-- At region 0's exit: its arrays at what the pipeline leaves (the inputs as entered, the output's one write-back
    folded), every other buffer as launched. -/
def W1 (c : Dev nD) : Valuation τ sig (Elt F) :=
  Pipeline.withArrays spec0 c (W0 m c) fun w => (dat0 m c).arrAt w cfg0.N
theorem W1_arr (c : Dev nD) (w : Fin cfg0.W) :
    W1 m c (Proc.devRef .tc (Pipeline.arrRef spec0 w)) = (dat0 m c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 m c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- Region 0 writes no argument: an argument that is one of its input arrays is never written back, the others are
    none of its arrays. -/
theorem W1_main_arg0 (c : Dev nD) : W1 m c (Proc.devRef .tc main_arg0) = m ((c : Thread nD τ).loc main_arg0) :=
  (W1_of_ne m c main_arg0 (by decide)).trans rfl
theorem W1_main_arg1 (c : Dev nD) : W1 m c (Proc.devRef .tc main_arg1) = m ((c : Thread nD τ).loc main_arg1) :=
  (W1_arr m c 0).trans (((dat0 m c).arrAt_in 0 rfl _).trans (A_eq0 m c 0))
theorem W1_main_arg2 (c : Dev nD) : W1 m c (Proc.devRef .tc main_arg2) = m ((c : Thread nD τ).loc main_arg2) :=
  (W1_of_ne m c main_arg2 (by decide)).trans rfl
theorem W1_main_arg3 (c : Dev nD) : W1 m c (Proc.devRef .tc main_arg3) = m ((c : Thread nD τ).loc main_arg3) :=
  (W1_arr m c 1).trans (((dat0 m c).arrAt_in 1 rfl _).trans (A_eq0 m c 1))
theorem W1_main_arg4 (c : Dev nD) : W1 m c (Proc.devRef .tc main_arg4) = m ((c : Thread nD τ).loc main_arg4) :=
  (W1_of_ne m c main_arg4 (by decide)).trans rfl

/-! # Region 1: the result in blocks of 800 rows, 63 grid points, entered at those contents -/

/-- Every window of region 1 is forgotten: nothing is said of what its staging buffer holds before or after the body. -/
def forgets1 : Fin 6 → Bool := fun _ => true

/-- Region 1's proof data on core `c`: the arrays as region 0 leaves them; what the body leaves in a buffer is not
    named; the invariant the scoped rest and the generator register; nothing owed; full shares. -/
def dat1 (c : Dev nD) : Dat τ (Elt F) Unit ℕ (UR sig nD τ) ℕ cfg1 c where
  A w := V1 m c (Pipeline.arrRef spec1 w)
  after w t := Pipeline.Dat.unnamed (cfg := cfg1) w t
  Φ _ := Pipeline.ΦA spec1 c
  q _ := fullShare
  owed _ := 0

theorem A_eq1 (c : Dev nD) (w : Fin cfg1.W) : (dat1 m c).A w = V1 m c (Pipeline.arrRef spec1 w) := by
  dsimp only [dat1]

/-- What the body is called with at point `t`: every window's current buffer at some contents, -/
def bodyPre1 (c : Dev nD) (t : Fin cfg1.N) : sProp 𝕄 :=
  iprop((dat1 m c).Φ t.castSucc ∗ (dat1 m c).owesAt () t.castSucc
    ∗ (∃ X, owns (c : Thread nD τ) (st1_0 t) fullShare X)
    ∗ (∃ X, owns (c : Thread nD τ) (st1_1 t) fullShare X)
    ∗ (∃ X, owns (c : Thread nD τ) (st1_2 t) fullShare X)
    ∗ (∃ X, owns (c : Thread nD τ) (st1_3 t) fullShare X)
    ∗ (∃ X, owns (c : Thread nD τ) (st1_4 t) fullShare X)
    ∗ (∃ X, owns (c : Thread nD τ) (st1_5 t) fullShare X))

/-- and what it returns: the same. -/
def bodyPost1 (c : Dev nD) (t : Fin cfg1.N) : sProp 𝕄 :=
  iprop((dat1 m c).Φ t.succ ∗ (dat1 m c).owesAt () t.succ
    ∗ (∃ X, owns (c : Thread nD τ) (st1_0 t) fullShare X)
    ∗ (∃ X, owns (c : Thread nD τ) (st1_1 t) fullShare X)
    ∗ (∃ X, owns (c : Thread nD τ) (st1_2 t) fullShare X)
    ∗ (∃ X, owns (c : Thread nD τ) (st1_3 t) fullShare X)
    ∗ (∃ X, owns (c : Thread nD τ) (st1_4 t) fullShare X)
    ∗ (∃ X, owns (c : Thread nD τ) (st1_5 t) fullShare X))

/-- The body at any point: its triple holds at any contents of the five input buffers and leaves each buffer at
    some contents; the invariant and the core's dues pass through unread. -/
theorem sound_body1 (c : Dev nD) (t : Fin cfg1.N) :
    bodyPre1 m c t ⊢ wp frame (wpE (defs₀ (F := F)) Variants.none c none) Set.univ (bodyAt1 t) (fun _ => bodyPost1 m c t) := by
  unfold bodyPre1 bodyPost1 bodyAt1
  rw [show (dat1 m c).Φ t.succ = (dat1 m c).Φ t.castSucc from rfl,
    show (dat1 m c).owesAt () t.succ = (dat1 m c).owesAt () t.castSucc from rfl]
  iintro ⟨HΦ, Ho, ⟨%x0, H0⟩, ⟨%x1, H1⟩, ⟨%x2, H2⟩, ⟨%x3, H3⟩, ⟨%x4, H4⟩, ⟨%x5, H5⟩⟩
  iapply (Body.sound_kernel1 c Set.univ _ _ _ _ _ _ _ _ _ _ _ _ _ x0 x1 x2 x3 x4 _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  iexists _; iexact H5

/-- The body obligation of region 1 with every window forgotten, at every point. -/
theorem body_obligation1 (c : Dev nD) : BodyObligation (dat1 (F := F) m c) (defs₀ (F := F)) Variants.none () Set.univ forgets1 := fun t => by
  rw [bigSep_W1, bigSep_W1]
  exact sound_body1 m c t

/-- An input window's array of region 1 may hold, after any number of write-backs, only what it held at entry. -/
theorem arrAt1_in (c : Dev nD) (w : Fin cfg1.W) (hin : (cfg1.win w).isOut = false) (n : Nat)
    (G : Buf (Elt F) ((cfg1.win w).arr.view.loc (c.tc : Thread nD τ)))
    (h : ((dat1 m c).toRForget forgets1).ArrAt w n G) : G = V1 m c (Pipeline.arrRef spec1 w) := by
  rw [Pipeline.RDat.ArrAt_in _ w hin] at h
  exact h

/-! # The run: @main's two regions from the launch to the return -/

/-- The prefetched tables' admissible contents: no pipeline has a table. -/
abbrev adm : (p : Fin 2) → (pcfgs (F := F) p).Adm := fun p => (cfgs p).toPCfg_adm

/-- Every pipeline's exact proof data, each at its region's entry contents. -/
def pdats : (p : Fin 2) → (c : Dev nD) → Dat τ (Elt F) Unit ℕ (UR sig nD τ) ℕ (Pipeline.pin (pcfgs (F := F)) adm p) c
  | ⟨0, _⟩ => fun c => dat0 m c
  | ⟨1, _⟩ => fun c => dat1 m c

/-- The same read as relational data: region 0's as they stand, region 1's with every window forgotten. -/
def rdats : (p : Fin 2) → (c : Dev nD) → RDat τ (Elt F) Unit ℕ (UR sig nD τ) ℕ (Pipeline.pin (pcfgs (F := F)) adm p) c
  | ⟨0, _⟩ => fun c => (dat0 m c).toR
  | ⟨1, _⟩ => fun c => (dat1 m c).toRForget forgets1

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the core's generator register at some state and its dues, at
    nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A valuation of core `c`'s buffers that has every argument at its launch contents. -/
def Keeps (c : Dev nD) (V : Valuation τ sig (Elt F)) : Prop :=
  V (Proc.devRef .tc main_arg0) = m ((c : Thread nD τ).loc main_arg0)
  ∧ V (Proc.devRef .tc main_arg1) = m ((c : Thread nD τ).loc main_arg1)
  ∧ V (Proc.devRef .tc main_arg2) = m ((c : Thread nD τ).loc main_arg2)
  ∧ V (Proc.devRef .tc main_arg3) = m ((c : Thread nD τ).loc main_arg3)
  ∧ V (Proc.devRef .tc main_arg4) = m ((c : Thread nD τ).loc main_arg4)

/-- At region 1's exit, if its arrays hold `A`: those, every other buffer as region 0 left it. -/
def W2 (c : Dev nD) (A : (w : Fin cfg1.W) → Buf (Elt F) ((cfg1.win w).arr.view.loc (c.tc : Thread nD τ))) : Valuation τ sig (Elt F) :=
  Pipeline.withArrays spec1 c (W1 m c) A
theorem W2_arr (c : Dev nD) (A) (w : Fin cfg1.W) : W2 m c A (Proc.devRef .tc (Pipeline.arrRef spec1 w)) = A w := by
  unfold W2; exact Pipeline.withArrays_arr spec1 launch1.win.arr_inj c _ _ w
theorem W2_of_ne (c : Dev nD) (A) (b : Ref sig .tc) (hb : ∀ w, Pipeline.arrRef spec1 w ≠ b) :
    W2 m c A (Proc.devRef .tc b) = W1 m c (Proc.devRef .tc b) := by
  unfold W2; exact Pipeline.withArrays_of_ne spec1 c _ _ b hb
abbrev V2 (c : Dev nD) (A : (w : Fin cfg1.W) → Buf (Elt F) ((cfg1.win w).arr.view.loc (c.tc : Thread nD τ))) : (b : Ref sig .tc) → Buf (Elt F) ((c : Thread nD τ).loc b) := fun b => W2 m c A b

/-- Whatever region 1's arrays may hold at its exit, the arguments are as launched: four of them are input arrays of
    the region, never written back, and hold what region 0 left, which is the launch contents; the fifth is none of its
    arrays. -/
theorem keeps_W2 (c : Dev nD) (A : (w : Fin cfg1.W) → Buf (Elt F) ((cfg1.win w).arr.view.loc (c.tc : Thread nD τ)))
    (hA : ∀ w, ((dat1 m c).toRForget forgets1).ArrAt w cfg1.N (A w)) : Keeps m c (W2 m c A) := by
  refine ⟨?_, ?_, ?_, ?_, ?_⟩
  · exact ((W2_arr m c A 1).trans (arrAt1_in m c 1 rfl _ _ (hA 1))).trans (W1_main_arg0 m c)
  · exact (W2_of_ne m c A main_arg1 (by decide)).trans (W1_main_arg1 m c)
  · exact ((W2_arr m c A 0).trans (arrAt1_in m c 0 rfl _ _ (hA 0))).trans (W1_main_arg2 m c)
  · exact ((W2_arr m c A 2).trans (arrAt1_in m c 2 rfl _ _ (hA 2))).trans (W1_main_arg3 m c)
  · exact ((W2_arr m c A 3).trans (arrAt1_in m c 3 rfl _ _ (hA 3))).trans (W1_main_arg4 m c)

/-! ## The regions as segments -/

set_option backward.isDefEq.respectTransparency.types false in
/-- Region 0 over the thread state: entered from every unscoped buffer at the launch contents, left at `W1`. Its arrays
    split out of the unscoped buffers and put back at the contents the exact data name; the generator register into the
    region's invariant and out; nothing owed; no semaphore of the kernel's own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 m c).toR
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    have harr : ((rdats m 0 c).arraysAt cfg0.N : sProp 𝕄) ⊢ (pdats m 0 c).arrays ((pdats m 0 c).arrAt · cfg0.N) :=
      (dat0 m c).toR_arraysAt_post cfg0.N
    iintro ⟨Ha, HO, HY, Hrest⟩
    ihave Ha' := harr $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
/-- Region 1 over the thread state: entered from every unscoped buffer at `W1`, left at SOME valuation that has the
    arguments as launched. Its arrays split out of the unscoped buffers at the entry contents; at the exit each array
    holds some contents it may hold after the write-backs, an input's being its entry contents, and they go back among
    the unscoped buffers at the valuation that has them there. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 m c).toRForget
  hwaits := Pipeline.RDat.hwaits_of_owed_zero _ _ _ _ L lv 1 fun _ _ => rfl
  pre c := iprop(StableHlo.held (c : Thread nD τ) (Pipeline.ucRefs τ sig) (W1 m c) ∗ R c)
  post c := iprop(∃ V' : Valuation τ sig (Elt F), ⌜Keeps m c V'⌝ ∗ StableHlo.held (c : Thread nD τ) (Pipeline.ucRefs τ sig) V' ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    -- the arrays at SOME contents they may hold after every write-back, gathered into one family `A`
    have hopen : ((rdats m 1 c).arraysAt cfg1.N : sProp 𝕄)
        ⊢ iprop(∃ A : (w : Fin cfg1.W) → Buf (Elt F) ((cfg1.win w).arr.view.loc (c.tc : Thread nD τ)),
            ⌜∀ w, ((dat1 m c).toRForget forgets1).ArrAt w cfg1.N (A w)⌝ ∗ (pdats m 1 c).arrays A) := by
      show (((dat1 m c).toRForget forgets1).arraysAt cfg1.N : sProp 𝕄) ⊢ _
      unfold Pipeline.RDat.arraysAt
      iintro Ha
      ihave Ha' := (BI.bigSep_exists_pi Finset.univ (fun (w : Fin cfg1.W) F => iprop(⌜((dat1 m c).toRForget forgets1).ArrAt w cfg1.N F⌝
          ∗ (cfg1.win w).arr.view.loc (c.tc : Thread nD τ) ↦[(cfg1.win w).arr.view.set]{((dat1 m c).toRForget forgets1).share w} F))) $$ Ha
      icases Ha' with ⟨%A, Ha⟩
      ihave Ha2 := (BI.bigSep_pure_sep Finset.univ (fun w => ((dat1 m c).toRForget forgets1).ArrAt w cfg1.N (A w))
          (fun w => (cfg1.win w).arr.view.loc (c.tc : Thread nD τ) ↦[(cfg1.win w).arr.view.set]{((dat1 m c).toRForget forgets1).share w} A w)) $$ Ha
      icases Ha2 with ⟨%hA', Ha⟩
      iexists A; isplitr; · ipureintro; exact fun w => hA' w (Finset.mem_univ w)
      iapply (show (bigSep Finset.univ fun w : Fin cfg1.W =>
            ((cfg1.win w).arr.view.loc (c.tc : Thread nD τ) ↦[(cfg1.win w).arr.view.set]{((dat1 m c).toRForget forgets1).share w} A w : sProp 𝕄))
          ⊢ (pdats m 1 c).arrays A from Entails.of_eq rfl)
      iexact Ha
    iintro ⟨Ha, HO, HY, Hrest⟩
    ihave Ha' := hopen $$ Ha
    icases Ha' with ⟨%A, %hA, Ha⟩
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c A) A (fun w => (W2_arr m c A w).symm)
      (fun b hb => W2_of_ne m c A b fun w e => hb (Finset.mem_image.mpr ⟨w, Finset.mem_univ _, e⟩))
    rw [Pipeline.unscopedBufs_held] at hjoin
    imodintro
    iexists (W2 m c A)
    isplitr; · ipureintro; exact keeps_W2 m c A hA
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## @main as segments, and the launch -/

/-- @main's two segments in order: a region per kernel call. -/
abbrev segs : List (Pipeline.RDat.Seg (pcfgs (F := F)) adm (rdats m) () defs₀ 𝒱₀ L lv) :=
  [.region (reg0 m), .region (reg1 m)]

set_option backward.isDefEq.respectTransparency.types false in
/-- THE FRAME, at any float instance: from any memory with zero counters, every weakly fair execution of @main on the
    TensorCores terminates, nothing faulting, and every final state has the five argument arrays as launched. The last
    thread state holds every unscoped buffer at some valuation that has the arguments at their launch contents; read
    against the final state, it says the final memory has them so. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          Prog.lift (.customCall (Pipeline.entry 0) ()),
          Prog.lift (.customCall (Pipeline.entry 1) ()) ] from rfl]
      exact .rfl)
    (by simp only [segs, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(∃ V' : Valuation τ sig (Elt F), ⌜Keeps m c V'⌝
      ∗ StableHlo.held (c : Thread nD τ) (Pipeline.ucRefs τ sig) V' ∗ ∃ r, prngReg c r))
    (hch := ⟨fun _ => .rfl, fun _ => .rfl, fun c => by
      show (iprop(∃ V' : Valuation τ sig (Elt F), ⌜Keeps m c V'⌝ ∗ StableHlo.held (c : Thread nD τ) (Pipeline.ucRefs τ sig) V' ∗ R c) : sProp 𝕄)
        ⊢ iprop((∃ V' : Valuation τ sig (Elt F), ⌜Keeps m c V'⌝ ∗ StableHlo.held (c : Thread nD τ) (Pipeline.ucRefs τ sig) V' ∗ ∃ r, prngReg c r)
            ∗ ∃ W, owes (c : Thread nD τ) (0 : CellTallies nD τ sig Unit) W)
      iintro ⟨%V', %hV, Hh, Hp, HO⟩
      isplitr [HO]
      · iexists V'; isplitr; · ipureintro; exact hV
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
    (hfin := fun c s' => by
      iintro ⟨⟨%V', %hV, Hh, -⟩, HSI⟩
      unfold StableHlo.held
      ihave Hr := (pointsTo_read_all (Pipeline.ucRefs τ sig) (fun b => ((c : Thread nD τ).1, b)) V' s') $$ [Hh HSI]
      · isplitl [Hh] <;> iassumption
      icases Hr with ⟨%h, HSI⟩
      imodintro
      isplitr
      · ipureintro
        exact ⟨(h _ (mem_uc main_arg0 (by decide))).trans hV.1,
          (h _ (mem_uc main_arg1 (by decide))).trans hV.2.1,
          (h _ (mem_uc main_arg2 (by decide))).trans hV.2.2.1,
          (h _ (mem_uc main_arg3 (by decide))).trans hV.2.2.2.1,
          (h _ (mem_uc main_arg4 (by decide))).trans hV.2.2.2.2⟩
      · iexact HSI)
    (hQ := fun _ h => h)

end Cert.Kernel.FrameProof

end
-- ==== Proof.Body0.lean ====
/-
  Region 0 (the product kc · w1 as one block): what the kernel body does to its three staging buffers.
  The body loads the whole [2048, 512] block of kc and the whole [512, 512] block of w1, forms their matrix product into
  a zero accumulator, and stores it over the whole [2048, 512] output block. So after the body the two input buffers hold
  what they held and the output buffer holds that product, whatever it held before. Stated for any float instance.
-/
import proofs.«156019_j41996190220783_2_alg».proof.Proof.Gen.KernelIdeal.Launch
import proofs.«156019_j41996190220783_2_alg».proof.Proof.Gen.KernelIdeal.Skeleton
import proofs.«156019_j41996190220783_2_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole [2048, 512] block as a rectangle, and the whole [512, 512] block. -/
abbrev rK : Rect S2048x512 := Rect.unit (s := S2048x512) ![0, 0] S2048x512.size inb_S2048x512_S2048x512_0_0
abbrev rW : Rect S512x512 := Rect.unit (s := S512x512) ![0, 0] S512x512.size inb_S512x512_S512x512_0_0

/-- What the output buffer holds after the body: the one store, of the product of the two loaded blocks. -/
def out0 (x0 : Vec F S2048x512 .f32) (x1 : Vec F S512x512 .f32) : Vec F S2048x512 .f32 :=
  View.canon [⟨rK, k0_pay1 (View.ld x0 rK) (View.ld x1 rW)⟩]

/-- The one store covers the output block. -/
theorem cover0 (p0 : Vec F S2048x512 .f32) (y : S2048x512.Idx) :
    ∃ pc ∈ ([⟨rK, p0⟩] : List (View.Piece (Elt F) S2048x512 .f32)), y ∈ pc.1.set :=
  View.cover_of_tiled [⟨rK, p0⟩] S2048x512.size (by rfl) y

set_option maxHeartbeats 1000000 in
/-- The body on whole staging buffers: the inputs at `x0`, `x1`, the output at anything; it ends with the inputs as
    they were and the output at `out0 x0 x1`. -/
theorem sound_kernel0 (c : Dev nD) (E : Set ℕ) (i : grid0.Coords)
    (arg1 : Memref sig .tc .vmem S2048x512 .f32) (harg1 : arg1.IsWhole) (arg2 : Memref sig .tc .vmem S512x512 .f32) (harg2 : arg2.IsWhole)
    (arg3 : Memref sig .tc .vmem S2048x512 .f32) (harg3 : arg3.IsWhole)
    (x0 : Vec F S2048x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__kc_wh_kernel i arg1 harg1 arg2 harg2 arg3 harg3) K := by
  simp only [cc0__kc_wh_kernel_eq_skeleton]; unfold cc0__kc_wh_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

end Cert.KernelIdeal.Body

end
-- ==== Proof.Body1.lean ====
/-
  Region 1 (one block of 800 rows of the result): what the kernel body does to its six staging buffers.
  The body loads the whole [800, 2048] block of adj, the whole [800, 512] block of ex, the whole w1, w2 and the whole
  [2048, 512] product kc · w1, computes ELU of (adj-block · (kc · w1)) times ((ex-block · w1) · w2) entry by entry,
  and stores it over the whole [800, 512] output block. So after the body the five input buffers hold what they held and
  the output buffer holds that block, whatever it held before. Stated for any float instance.
-/
import proofs.«156019_j41996190220783_2_alg».proof.Proof.Body0

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole [800, 2048] block and the whole [800, 512] block as rectangles. -/
abbrev rA : Rect S800x2048 := Rect.unit (s := S800x2048) ![0, 0] S800x2048.size inb_S800x2048_S800x2048_0_0
abbrev rE : Rect S800x512 := Rect.unit (s := S800x512) ![0, 0] S800x512.size inb_S800x512_S800x512_0_0

/-- What the output buffer holds after the body: the one store, of the payload of the five loaded blocks
    (`xA` the adj block, `xE` the ex block, `xW1`, `xW2`, and `xK` the product kc · w1). -/
def out1 (xA : Vec F S800x2048 .f32) (xE : Vec F S800x512 .f32) (xW1 xW2 : Vec F S512x512 .f32) (xK : Vec F S2048x512 .f32) :
    Vec F S800x512 .f32 :=
  View.canon [⟨rE, k1_pay1 (View.ld xE rE) (View.ld xW1 rW) (View.ld xW2 rW) (View.ld xA rA) (View.ld xK rK)⟩]

/-- The one store covers the output block. -/
theorem cover1 (p0 : Vec F S800x512 .f32) (y : S800x512.Idx) :
    ∃ pc ∈ ([⟨rE, p0⟩] : List (View.Piece (Elt F) S800x512 .f32)), y ∈ pc.1.set :=
  View.cover_of_tiled [⟨rE, p0⟩] S800x512.size (by rfl) y

set_option maxHeartbeats 1000000 in
/-- The body on whole staging buffers: the five inputs at given contents, the output at anything; it ends with the
    inputs as they were and the output at `out1` of them. -/
theorem sound_kernel1 (c : Dev nD) (E : Set ℕ) (i : grid1.Coords)
    (arg1 : Memref sig .tc .vmem S800x2048 .f32) (harg1 : arg1.IsWhole) (arg2 : Memref sig .tc .vmem S800x512 .f32) (harg2 : arg2.IsWhole)
    (arg3 : Memref sig .tc .vmem S512x512 .f32) (harg3 : arg3.IsWhole) (arg4 : Memref sig .tc .vmem S512x512 .f32) (harg4 : arg4.IsWhole)
    (arg5 : Memref sig .tc .vmem S2048x512 .f32) (harg5 : arg5.IsWhole) (arg6 : Memref sig .tc .vmem S800x512 .f32) (harg6 : arg6.IsWhole)
    (xA : Vec F S800x2048 .f32) (xE : Vec F S800x512 .f32) (xW1 xW2 : Vec F S512x512 .f32) (xK : Vec F S2048x512 .f32) (K : PUnit → sProp 𝕄) :
    iprop(owns (c : Thread nD τ) arg1 fullShare xA ∗ owns (c : Thread nD τ) arg2 fullShare xE ∗ owns (c : Thread nD τ) arg3 fullShare xW1
        ∗ owns (c : Thread nD τ) arg4 fullShare xW2 ∗ owns (c : Thread nD τ) arg5 fullShare xK ∗ (∃ d, owns (c : Thread nD τ) arg6 fullShare d)
        ∗ (iprop(owns (c : Thread nD τ) arg1 fullShare xA ∗ owns (c : Thread nD τ) arg2 fullShare xE ∗ owns (c : Thread nD τ) arg3 fullShare xW1
            ∗ owns (c : Thread nD τ) arg4 fullShare xW2 ∗ owns (c : Thread nD τ) arg5 fullShare xK
            ∗ owns (c : Thread nD τ) arg6 fullShare (out1 xA xE xW1 xW2 xK)) -∗ K ⟨⟩))
      ⊢ wp frame (wpE (defs₀ (F := F)) Variants.none c none) E (cc1__gconv_kernel i arg1 harg1 arg2 harg2 arg3 harg3 arg4 harg4 arg5 harg5 arg6 harg6) K := by
  simp only [cc1__gconv_kernel_eq_skeleton]; unfold cc1__gconv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

end Cert.KernelIdeal.Body

end
-- ==== Proof.Spec.lean ====
/-
  The specification both programs are compared against, on the extended reals.

  The inputs are five arrays: ex [50000, 512], kc [2048, 512], adj [50000, 2048], w1 [512, 512], w2 [512, 512].
  Entry (i, j) of the result is ELU of the product of two numbers:
    * the (i, j) entry of adj · (kc · w1): the sum over k < 2048 of adj (i, k) times the (k, j) entry of kc · w1;
    * the (i, j) entry of (ex · w1) · w2: the sum over k < 512 of the (i, k) entry of ex · w1 times w2 (k, j).
  ELU of p is p itself when p is positive and exp p - 1 otherwise.
  Row i of the result depends on row i of ex and of adj only (and on all of kc, w1, w2): that is why a block of rows of
  the result can be computed from the same block of rows of ex and adj.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- ELU on the extended reals: the identity on the positive numbers, `exp p - 1` elsewhere. -/
def elu (p : EReal) : EReal := if 0 < p then p else Ideal.exp p - 1

/-- Entry (r, j) of the product kc · w1: the sum over l < 512 of kc (r, l) · w1 (l, j). -/
def kcW (kc : (⟨2, ![2048, 512]⟩ : Shape).Idx → EReal) (w1 : (⟨2, ![512, 512]⟩ : Shape).Idx → EReal)
    (r : Fin 2048) (j : Fin 512) : EReal :=
  ∑ l : Fin 512, kc (ix2 r l) * w1 (ix2 l j)

/-- Entry (k) of row `exRow` times w1: the sum over l < 512 of exRow l · w1 (l, k). The row is given as a function of
    the column, so that the same definition reads a row of the whole array and a row of a block of it. -/
def rowW (exRow : Fin 512 → EReal) (w1 : (⟨2, ![512, 512]⟩ : Shape).Idx → EReal) (k : Fin 512) : EReal :=
  ∑ l : Fin 512, exRow l * w1 (ix2 l k)

/-- One entry of the result from ONE row of adj (`adjRow`, 2048 numbers), ONE row of ex (`exRow`, 512 numbers), the
    product kc · w1 given entry by entry (`kw`), and w1, w2: ELU of
    (the sum over k < 2048 of adjRow k · kw k j) · (the sum over k < 512 of (exRow · w1) k · w2 (k, j)). -/
def entry (adjRow : Fin 2048 → EReal) (exRow : Fin 512 → EReal) (kw : Fin 2048 → Fin 512 → EReal)
    (w1 w2 : (⟨2, ![512, 512]⟩ : Shape).Idx → EReal) (j : Fin 512) : EReal :=
  elu ((∑ k : Fin 2048, adjRow k * kw k j) * (∑ k : Fin 512, rowW exRow w1 k * w2 (ix2 k j)))

/-- The result at (i, j), as one function of the five argument arrays. -/
def G (ex : (⟨2, ![50000, 512]⟩ : Shape).Idx → EReal) (kc : (⟨2, ![2048, 512]⟩ : Shape).Idx → EReal)
    (adj : (⟨2, ![50000, 2048]⟩ : Shape).Idx → EReal) (w1 w2 : (⟨2, ![512, 512]⟩ : Shape).Idx → EReal)
    (i : Fin 50000) (j : Fin 512) : EReal :=
  entry (fun k => adj (ix2 i k)) (fun l => ex (ix2 i l)) (kcW kc w1) w1 w2 j

/-- The result as an array. -/
def Garr (ex : (⟨2, ![50000, 512]⟩ : Shape).Idx → EReal) (kc : (⟨2, ![2048, 512]⟩ : Shape).Idx → EReal)
    (adj : (⟨2, ![50000, 2048]⟩ : Shape).Idx → EReal) (w1 w2 : (⟨2, ![512, 512]⟩ : Shape).Idx → EReal) :
    (⟨2, ![50000, 512]⟩ : Shape).Idx → EReal :=
  fun idx => G ex kc adj w1 w2 (idx 0) (idx 1)

theorem Garr_ix2 (ex kc adj w1 w2) (i : Fin 50000) (j : Fin 512) :
    Garr ex kc adj w1 w2 (ix2 i j) = G ex kc adj w1 w2 i j := rfl

end Cert.Spec

end
-- ==== Proof.LibRowDot.lean ====
/-
  A rows-by-columns product read at an index.

  For the plain dimension numbers of an [M, K] by [K, N] product (the left operand contracted on its axis 1, the
  right on its axis 0, no batch axis) the sum over the contraction index of the operands' products at output
  element (p, q) is the sum over k < K of left (p, k) times right (k, q).  Both a matmul into a zero
  accumulator and the host's dot_general are that sum on the extended reals.
-/
import Idealize.ShloMosaic.PureOps.Ideal.Laws
import Idealize.ShloMosaic.Lib.ValueIdx

noncomputable section

namespace Idealize.ShloMosaic.RowDot

open Idealize.ShloMosaic Idealize.ShloMosaic.ValueIdx

variable {M K N : Nat}

/-- The contraction's sum of a plain product at output element j, re-indexed by the contracted coordinate. -/
theorem plain_sum (l : (⟨2, ![M, K]⟩ : Shape).Idx → EReal) (r : (⟨2, ![K, N]⟩ : Shape).Idx → EReal)
    (j : (⟨2, ![M, N]⟩ : Shape).Idx) :
    ∑ k : (DotDims.plain M K N).contr.Idx,
        l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => rfl)
  exact congr (congrArg (fun a b : EReal => a * b) (congrArg l el)) (congrArg r er)

/-- A matmul into the zero accumulator, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, (l (ix2 p k) : EReal) * (r (ix2 k q) : EReal) := by
  rw [Ideal.matmul_constant_zero_apply]
  exact plain_sum (M := M) (K := K) (N := N) l r (ix2 p q)

/-- The host's dot_general, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q)
      = ∑ k : Fin K, (l (ix2 p k) : EReal) * (r (ix2 k q) : EReal) := by
  rw [Ideal.dotGeneral_apply]
  exact plain_sum (M := M) (K := K) (N := N) l r (ix2 p q)

end Idealize.ShloMosaic.RowDot

end
-- ==== Proof.Pay.lean ====
/-
  The two kernel bodies' results read at an index, on the extended reals.

  Region 0 stores the matrix product of its two loaded blocks: entry (r, j) is the sum over l < 512 of
  kc (r, l) · w1 (l, j). Region 1 stores, at (r, q) of its block of 800 rows, ELU of the product of
  the sum over k < 2048 of adjBlock (r, k) · kw (k, q) and the sum over k < 512 of (exBlock-row r · w1) k · w2 (k, q):
  the specification's `entry` of ROW r of the two blocks. A change of float format is the identity on the extended reals,
  each matrix product into the zero accumulator is the plain sum over the contracted coordinate, and the comparison with
  zero selects between p and exp p - 1.
-/
import proofs.«156019_j41996190220783_2_alg».proof.Proof.Body1
import proofs.«156019_j41996190220783_2_alg».proof.Proof.Spec
import proofs.«156019_j41996190220783_2_alg».proof.Proof.LibRowDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Pay

open Cert.KernelIdeal Cert.KernelIdeal.Gen Cert.KernelIdeal.Body
open Idealize.ShloMosaic Idealize.ShloMosaic.ValueIdx

/-- The zero offsets of a whole-block rectangle. -/
theorem hz : (![0, 0] : Fin 2 → Nat) = fun _ => 0 := funext fun a => by fin_cases a <;> rfl

/-- The three printed dimension records are the plain rows-by-columns ones. -/
theorem dotK_eq : dot_S2048x512_S512x512_S2048x512_1_0_0_1_n_n = DotDims.plain 2048 512 512 := rfl
theorem dotE_eq : dot_S800x512_S512x512_S800x512_1_0_0_1_n_n = DotDims.plain 800 512 512 := rfl
theorem dotA_eq : dot_S800x2048_S2048x512_S800x512_1_0_0_1_n_n = DotDims.plain 800 2048 512 := rfl

/-- The literal 1.0 is the extended real 1. -/
theorem ofBits_one_f32 : Ideal.ofBits .f32 0x3F800000#32 = 1 := by
  simp [Ideal.ofBits, Ideal.ieee]
  rw [← EReal.coe_mul]; norm_num

/-- Selecting on "p is above zero" between p and exp p - 1 is ELU. -/
theorem select_elu (p : EReal) :
    Scalar.select (Ideal.cmp .ogt p 0) p (Ideal.exp p - 1) = Cert.Spec.elu p := by
  unfold Cert.Spec.elu
  by_cases h : (0 : EReal) < p
  · rw [if_pos h]; simp [Ideal.cmp, Scalar.select, h]
  · rw [if_neg h]; simp [Ideal.cmp, Scalar.select, h]

/-- Region 0's block at (r, j): the product kc · w1 there. -/
theorem out0_apply (x0 : Vec Ideal S2048x512 .f32) (x1 : Vec Ideal S512x512 .f32) (r : Fin 2048) (j : Fin 512) :
    out0 (F := Ideal) x0 x1 (ix2 r j) = Cert.Spec.kcW x0 x1 r j := by
  unfold out0
  rw [View.canon_unit_zero hz]
  simp only [View.ld_unit_zero (S := S2048x512) hz, View.ld_unit_zero (S := S512x512) hz]
  unfold k0_pay1
  rw [dotK_eq]
  exact Idealize.ShloMosaic.RowDot.matmul_zero_apply (M := 2048) (K := 512) (N := 512) (φ₁ := .f32) (φ₂ := .f32) (some .fp32) x0 x1 r j

/-- A [800, 512] · [512, 512] product into the zero accumulator at (r, k), and a [800, 2048] · [2048, 512] one at (r, q). -/
theorem mmE (l : FVec Ideal S800x512 .bf16) (w : FVec Ideal S512x512 .bf16) (r : Fin 800) (k : Fin 512) :
    matmul dot_S800x512_S512x512_S800x512_1_0_0_1_n_n none l w (constant S800x512 .f32 0x00000000#32) (ix2 r k)
      = ∑ l' : Fin 512, l (ix2 r l') * w (ix2 l' k) := by
  rw [dotE_eq]
  exact Idealize.ShloMosaic.RowDot.matmul_zero_apply (M := 800) (K := 512) (N := 512) (φ₁ := .bf16) (φ₂ := .bf16) none l w r k
theorem mmA (l : FVec Ideal S800x2048 .bf16) (w : FVec Ideal S2048x512 .bf16) (r : Fin 800) (q : Fin 512) :
    matmul dot_S800x2048_S2048x512_S800x512_1_0_0_1_n_n none l w (constant S800x512 .f32 0x00000000#32) (ix2 r q)
      = ∑ k : Fin 2048, l (ix2 r k) * w (ix2 k q) := by
  rw [dotA_eq]
  exact Idealize.ShloMosaic.RowDot.matmul_zero_apply (M := 800) (K := 2048) (N := 512) (φ₁ := .bf16) (φ₂ := .bf16) none l w r q

/-- The exponential of a vector at an index. -/
theorem exp_apply {s : Shape} {φ : FTy} (x : FVec Ideal s φ) (i : s.Idx) : exp x i = Ideal.exp (x i) := rfl

/-- Region 1's payload at (r, q): the specification's entry of row r of the two blocks. -/
theorem pay1_apply (xE : Vec Ideal S800x512 .f32) (xW1 xW2 : Vec Ideal S512x512 .f32) (xA : Vec Ideal S800x2048 .f32)
    (xK : Vec Ideal S2048x512 .f32) (r : Fin 800) (q : Fin 512) :
    k1_pay1 (F := Ideal) xE xW1 xW2 xA xK (ix2 r q)
      = Cert.Spec.entry (fun k => xA (ix2 r k)) (fun l => xE (ix2 r l)) (fun k j => xK (ix2 k j)) xW1 xW2 q := by
  unfold k1_pay1
  rw [select_apply, cmpf_apply, subf_apply, exp_apply, mulf_apply, broadcast_apply, broadcast_apply, mmA, mmE,
    Ideal.cmpf_def]
  show Scalar.select (Ideal.cmp .ogt _ (Ideal.ofBits .f32 0x00000000#32)) _ (Ideal.exp _ - Ideal.ofBits .f32 0x3F800000#32) = _
  rw [Ideal.ofBits_zero_f32, ofBits_one_f32, select_elu]
  unfold Cert.Spec.entry
  refine congrArg Cert.Spec.elu ?_
  congr 1
  · rw [Idealize.ShloMosaic.shapeCast_self]; rfl
  · refine Finset.sum_congr rfl fun k _ => ?_
    rw [truncf_apply, truncf_apply, mmE]; rfl

/-- Region 1's block at (r, q). -/
theorem out1_apply (xA : Vec Ideal S800x2048 .f32) (xE : Vec Ideal S800x512 .f32) (xW1 xW2 : Vec Ideal S512x512 .f32)
    (xK : Vec Ideal S2048x512 .f32) (r : Fin 800) (q : Fin 512) :
    out1 (F := Ideal) xA xE xW1 xW2 xK (ix2 r q)
      = Cert.Spec.entry (fun k => xA (ix2 r k)) (fun l => xE (ix2 r l)) (fun k j => xK (ix2 k j)) xW1 xW2 q := by
  unfold out1
  rw [View.canon_unit_zero hz]
  simp only [View.ld_unit_zero (S := S800x512) hz, View.ld_unit_zero (S := S512x512) hz, View.ld_unit_zero (S := S800x2048) hz,
    View.ld_unit_zero (S := S2048x512) hz]
  exact pay1_apply xE xW1 xW2 xA xK r q

end Cert.KernelIdeal.Pay

end
-- ==== Proof.Dats.lean ====
/-
  The proof data of the two regions at the extended reals, at a parameter V: the contents of the unscoped buffers when a
  region is entered.

  Region 0 has one grid point. After its body the two input buffers hold their (whole) blocks of kc and w1, and the
  output buffer holds their product.
  Region 1 has 63 grid points; point t handles rows 800 t .. 800 t + 799 of adj, ex and the result, and the last point
  has only 400 rows inside the arrays. What a staging buffer holds past the rows inside the array is named by nobody: the
  proof data fill those rows with zero, and the body's obligation speaks of the rows inside the array only. After the
  body at point t: the adj and ex buffers hold their blocks (on the rows inside the array), the w1, w2 and kc · w1
  buffers hold those whole arrays, and the output buffer holds, on the rows inside the array, the specification's
  entries for those rows: entry (r, q) of the block is the specification at row 800 t + r, because every product in the
  body combines row r of a block with whole matrices.
-/
import proofs.«156019_j41996190220783_2_alg».proof.Proof.Pay
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen Cert.KernelIdeal.Body Cert.KernelIdeal.Pay
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-! ## Region 0 -/

/-- Window w's block at point t, read off its array as the region finds it. -/
def iblk0 (c : Dev nD) (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))

/-- Region 0's proof data: the arrays as found; after the body the inputs at their blocks, the output at their product. -/
def dat0 (c : Dev nD) : Dat τ (Elt Ideal) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-- Each input buffer holds its block when the body runs. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := Ideal)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 V c) (defs₀ (F := Ideal)) Variants.none () Set.univ := fun t => by
  rw [bigSep_W0, bigSep_W0]
  exact sound_body0 V c t

/-! ## Region 1 -/

/-- Window w's block at point t, read off its array as the region finds it: for the three windows of 800 rows, the rows
    of the block that lie inside the array. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The result array as the specification gives it from what region 1 finds: row i of the result from row i of adj
    (`main_arg2`) and of ex (`main_arg0`), the product kc · w1 as found in `main_v0`, and w1, w2. -/
def Gout (c : Dev nD) : Buf (Elt Ideal) ((c : Thread nD τ).loc main_v1) :=
  fun idx => Cert.Spec.entry (fun k => (V c main_arg2 : S50000x2048.Idx → EReal) (ix2 (idx 0) k))
    (fun l => (V c main_arg0 : S50000x512.Idx → EReal) (ix2 (idx 0) l))
    (fun k j => (V c main_v0 : S2048x512.Idx → EReal) (ix2 k j))
    (V c main_arg3 : S512x512.Idx → EReal) (V c main_arg4 : S512x512.Idx → EReal) (idx 1)

/-- Region 1's proof data. Past the rows inside the array the three 800-row buffers are filled with the zero word. -/
def dat1 (c : Dev nD) : Dat τ (Elt Ideal) Unit ℕ (UR sig nD τ) ℕ cfg1 c where
  A w := V c (Pipeline.arrRef spec1 w)
  after w t := match w with
    | ⟨0, _⟩ => (cfg1.win 0).fill (cfg1.grid.coords t) (fun _ => Scalar.ofBits (F := Ideal) .f32 0#32) (iblk1 V c 0 t)
    | ⟨1, _⟩ => (cfg1.win 1).fill (cfg1.grid.coords t) (fun _ => Scalar.ofBits (F := Ideal) .f32 0#32) (iblk1 V c 1 t)
    | ⟨2, _⟩ => iblk1 V c 2 t
    | ⟨3, _⟩ => iblk1 V c 3 t
    | ⟨4, _⟩ => iblk1 V c 4 t
    | ⟨5, _⟩ => (cfg1.win 5).fill (cfg1.grid.coords t) (fun _ => Scalar.ofBits (F := Ideal) .f32 0#32) (((cfg1.win 5).blk t).view.read (Elt Ideal) (Gout V c))
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = (cfg1.win 0).fill (cfg1.grid.coords t) (fun _ => Scalar.ofBits (F := Ideal) .f32 0#32) (iblk1 V c 0 t) := by dsimp only [dat1]
theorem after1_1 (c : Dev nD) (t : Fin cfg1.N) : (dat1 V c).after 1 t = (cfg1.win 1).fill (cfg1.grid.coords t) (fun _ => Scalar.ofBits (F := Ideal) .f32 0#32) (iblk1 V c 1 t) := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (cfg1.win 5).fill (cfg1.grid.coords t) (fun _ => Scalar.ofBits (F := Ideal) .f32 0#32) (((cfg1.win 5).blk t).view.read (Elt Ideal) (Gout V c)) := by dsimp only [dat1]

/-- The two 800-row input buffers, fetched at every point, hold their block on the rows inside the array and anything
    elsewhere. -/
theorem before1_0 (c : Dev nD) (t : Fin cfg1.N) (d) :
    (dat1 V c).before 0 t d = (cfg1.win 0).fill (cfg1.grid.coords t) d (iblk1 V c 0 t) := by
  rw [(dat1 V c).before_fetched 0 t (fetch1_0 t) d]; unfold Dat.fetched Dat.blockOf iblk1; rw [A_eq1]
theorem before1_1 (c : Dev nD) (t : Fin cfg1.N) (d) :
    (dat1 V c).before 1 t d = (cfg1.win 1).fill (cfg1.grid.coords t) d (iblk1 V c 1 t) := by
  rw [(dat1 V c).before_fetched 1 t (fetch1_1 t) d]; unfold Dat.fetched Dat.blockOf iblk1; rw [A_eq1]
/-- The three whole input buffers, fetched at the first point only, hold their arrays at every point. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

end Cert.KernelIdeal.Run

end
-- ==== Proof.Oblig1.lean ====
/-
  Region 1's body obligation at the extended reals.

  At point t the body is handed: the adj and ex buffers at their blocks on the rows inside the array and at anything on
  the rows past its end; the w1, w2 and kc · w1 buffers at those arrays; the output buffer at anything. It leaves the
  five input buffers as they were, and in the output buffer the payload of what the five hold. The obligation asks each
  800-row buffer to be described on the rows inside the array only: for the two inputs those rows are still the block;
  for the output they are the specification's rows, GIVEN that the payload's rows inside the array do not depend on what
  fills the inputs past the array's end (the hypothesis `hcut`, proved from the payload read at an index).
-/
import proofs.«156019_j41996190220783_2_alg».proof.Proof.Dats

set_option maxRecDepth 16384

noncomputable section

namespace Cert.KernelIdeal.Run

open Cert.KernelIdeal Cert.KernelIdeal.Gen Cert.KernelIdeal.Body Cert.KernelIdeal.Pay
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-- What the output buffer's rows inside the array are, whatever fills the two clipped inputs past the array's end. -/
def CutOut (c : Dev nD) (t : Fin cfg1.N) : Prop :=
  ∀ (d0 : (cfg1.win 0).block.Idx → Elt Ideal (cfg1.win 0).elt) (d1 : (cfg1.win 1).block.Idx → Elt Ideal (cfg1.win 1).elt),
    (cfg1.win 5).cut (cfg1.grid.coords t)
        (out1 (F := Ideal) ((cfg1.win 0).fill (cfg1.grid.coords t) d0 (iblk1 V c 0 t)) ((cfg1.win 1).fill (cfg1.grid.coords t) d1 (iblk1 V c 1 t))
          (iblk1 V c 2 t) (iblk1 V c 3 t) (iblk1 V c 4 t))
      = ((cfg1.win 5).blk t).view.read (Elt Ideal) (Gout V c)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ (∃ d, owns (c : Thread nD τ) (st1_1 t) fullShare ((cfg1.win 1).fill (cfg1.grid.coords t) d ((cfg1.win 1).cut (cfg1.grid.coords t) ((dat1 V c).after 1 t))))
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ (∃ d, owns (c : Thread nD τ) (st1_5 t) fullShare ((cfg1.win 5).fill (cfg1.grid.coords t) d ((cfg1.win 5).cut (cfg1.grid.coords t) ((dat1 V c).after 5 t)))))

theorem sound_body1 (c : Dev nD) (t : Fin cfg1.N) (hcut : CutOut V c t) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5,
    Window.cut_fill, Window.cut_fill, Window.cut_fill]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    ((cfg1.win 0).fill (cfg1.grid.coords t) d0 (iblk1 V c 0 t)) ((cfg1.win 1).fill (cfg1.grid.coords t) d1 (iblk1 V c 1 t))
    (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  isplitl [H4]; · iexact H4
  iexists (out1 (F := Ideal) ((cfg1.win 0).fill (cfg1.grid.coords t) d0 (iblk1 V c 0 t)) ((cfg1.win 1).fill (cfg1.grid.coords t) d1 (iblk1 V c 1 t))
    (iblk1 V c 2 t) (iblk1 V c 3 t) (iblk1 V c 4 t))
  rw [← hcut d0 d1, Window.fill_cut]
  iexact H5

/-- The body obligation of region 1, each 800-row buffer described on the rows inside the array. -/
theorem body_obligation1 (c : Dev nD) (hcut : ∀ t, CutOut V c t) :
    BodyObligationLoose (dat1 V c) (defs₀ (F := Ideal)) Variants.none () Set.univ := fun t => by
  rw [bigSep_W1, bigSep_W1]
  exact sound_body1 V c t (hcut t)

end Cert.KernelIdeal.Run

end
-- ==== Proof.RunI.lean ====
/-
  The run of the idealized kernel program: two regions, one after the other, with nothing between them.

  Between the items each core holds every unscoped buffer whole. At launch they hold the launch memory; region 0 leaves
  them so except that its output array (`main_v0`) holds what its one write-back wrote; region 1 leaves them so except
  that its output array (`main_v1`) holds what its 63 write-backs wrote. A region takes its windows' arrays out of the
  unscoped buffers on entry and puts them back on exit; the generator register rides along; no core owes anything.
  Every weakly fair execution therefore terminates, and every final memory holds each unscoped buffer at the last of
  these contents.
-/
import proofs.«156019_j41996190220783_2_alg».proof.Proof.Oblig1
import proofs.«156019_j41996190220783_2_alg».proof.Proof.Gen.KernelIdeal.Regions

set_option maxRecDepth 16384

noncomputable section

namespace Cert.KernelIdeal.Run

open Cert.KernelIdeal Cert.KernelIdeal.Gen Cert.KernelIdeal.Body Cert.KernelIdeal.Pay
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)
-- the rows of region 1's output block inside the array are the specification's, at every entry contents
variable (hcut : ∀ (V : (c : Dev nD) → (b : Ref sig .tc) → Buf (Elt Ideal) ((c : Thread nD τ).loc b)) (c : Dev nD) (t : Fin cfg1.N), CutOut V c t)

/-! ## The buffers' contents at the three boundaries -/

/-- At launch. -/
abbrev W0 : Dev nD → Valuation τ sig (Elt Ideal) := fun c b => (s₀ m ρ).mem ((c : Dev nD), b)
abbrev Va : (c : Dev nD) → (b : Ref sig .tc) → Buf (Elt Ideal) ((c : Thread nD τ).loc b) := fun c b => W0 m ρ c b
/-- After region 0: its arrays at what the pipeline leaves, every other buffer as before. -/
def W1 (c : Dev nD) : Valuation τ sig (Elt Ideal) :=
  Pipeline.withArrays spec0 c (W0 m ρ c) fun w => (dat0 (Va m ρ) c).arrAt w cfg0.N
theorem W1_arr (c : Dev nD) (w : Fin cfg0.W) :
    W1 m ρ c (Proc.devRef .tc (Pipeline.arrRef spec0 w)) = (dat0 (Va m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Vb : (c : Dev nD) → (b : Ref sig .tc) → Buf (Elt Ideal) ((c : Thread nD τ).loc b) := fun c b => W1 m ρ c b
theorem hF0 (c : Dev nD) (w : Fin cfg0.W) : (dat0 (Va m ρ) c).arrAt w cfg0.N = Vb m ρ c (Pipeline.arrRef spec0 w) :=
  (W1_arr m ρ c w).symm
theorem hrest0 (c : Dev nD) : ∀ b, b ∉ Finset.univ.image (Pipeline.arrRef spec0) → Vb m ρ c b = Va m ρ c b :=
  fun b hb => W1_of_ne m ρ c b fun w e => hb (Finset.mem_image.mpr ⟨w, Finset.mem_univ _, e⟩)
/-- After region 1. -/
def W2 (c : Dev nD) : Valuation τ sig (Elt Ideal) :=
  Pipeline.withArrays spec1 c (W1 m ρ c) fun w => (dat1 (Vb m ρ) c).arrAt w cfg1.N
theorem W2_arr (c : Dev nD) (w : Fin cfg1.W) :
    W2 m ρ c (Proc.devRef .tc (Pipeline.arrRef spec1 w)) = (dat1 (Vb m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev Vc : (c : Dev nD) → (b : Ref sig .tc) → Buf (Elt Ideal) ((c : Thread nD τ).loc b) := fun c b => W2 m ρ c b
theorem hF1 (c : Dev nD) (w : Fin cfg1.W) : (dat1 (Vb m ρ) c).arrAt w cfg1.N = Vc m ρ c (Pipeline.arrRef spec1 w) :=
  (W2_arr m ρ c w).symm
theorem hrest1 (c : Dev nD) : ∀ b, b ∉ Finset.univ.image (Pipeline.arrRef spec1) → Vc m ρ c b = Vb m ρ c b :=
  fun b hb => W2_of_ne m ρ c b fun w e => hb (Finset.mem_image.mpr ⟨w, Finset.mem_univ _, e⟩)

/-! ## The proof data family and the thread state -/

/-- Every pipeline's proof data, each at its region's entry contents. -/
def pdats : (p : Fin 2) → (c : Dev nD) → Dat τ (Elt Ideal) Unit ℕ (UR sig nD τ) ℕ (Pipeline.pin (pcfgs (F := Ideal)) adm p) c
  | ⟨0, _⟩ => fun c => dat0 (Va m ρ) c
  | ⟨1, _⟩ => fun c => dat1 (Vb m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

set_option backward.isDefEq.respectTransparency.types false in
/-- Region 0 as a segment: entered from the launch contents, left at `W1`. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from `W1`, left at `W2`. -/
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (Vb m ρ) c (hcut (Vb m ρ) c)
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := Ideal)) adm (pdats m ρ) () defs₀ 𝒱₀ L lv) :=
  [ .region (reg0 m ρ), .region (reg1 m ρ hcut) ]
theorem main_run (c : Dev nD) : main (F := Ideal) c = Pipeline.Seg.run (segs m ρ hcut) := (main_chain c).trans (by chain_rfl)

include hcut in
set_option backward.isDefEq.respectTransparency.types false in
/-- Every weakly fair execution of @main terminates, and every final memory holds each unscoped buffer at `W2`. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := Ideal)) adm (pdats m ρ) () cellOf_inj emb₁ defs₀ 𝒱₀ L lv m ρ main (segs m ρ hcut)
    (fun c Q => by rw [main_run m ρ hcut c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

end Cert.KernelIdeal.Run

end
-- ==== Proof.ValueI.lean ====
/-
  The idealized kernel program's run, read: the result array ends at the specification array of the five launch arrays,
  and the five argument arrays end as launched.

  No region writes an argument: each is an input window's array of a region (whose array the pipeline leaves as it
  found it) or bypasses it. The result array `main_v1` ends at what region 1's write-backs leave, the specification
  array built from what region 1 found; and region 1 found the arguments as launched and, in `main_v0`, what region 0's
  one write-back left: the product kc · w1, entry by entry the specification's `kcW`.
-/
import proofs.«156019_j41996190220783_2_alg».proof.Proof.RunI

set_option maxRecDepth 16384

noncomputable section

namespace Cert.KernelIdeal.Run

open Cert.KernelIdeal Cert.KernelIdeal.Gen Cert.KernelIdeal.Body Cert.KernelIdeal.Pay
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)
-- what each region's output array holds after the region, at every entry contents
variable (hfin0 : ∀ (V : (c : Dev nD) → (b : Ref sig .tc) → Buf (Elt Ideal) ((c : Thread nD τ).loc b)) (c : Dev nD),
    (dat0 V c).arrAt 2 cfg0.N = out0 (F := Ideal) (V c main_arg1 : S2048x512.Idx → EReal) (V c main_arg3 : S512x512.Idx → EReal))
variable (hfin1 : ∀ (V : (c : Dev nD) → (b : Ref sig .tc) → Buf (Elt Ideal) ((c : Thread nD τ).loc b)) (c : Dev nD),
    (dat1 V c).arrAt 5 cfg1.N = Gout V c)

/-! ## What region 1 finds -/

theorem Vb_arg0 (c : Dev nD) : Vb m ρ c main_arg0 = m ((c : Thread nD τ).loc main_arg0) := W1_of_ne m ρ c main_arg0 (by decide)
theorem Vb_arg2 (c : Dev nD) : Vb m ρ c main_arg2 = m ((c : Thread nD τ).loc main_arg2) := W1_of_ne m ρ c main_arg2 (by decide)
theorem Vb_arg4 (c : Dev nD) : Vb m ρ c main_arg4 = m ((c : Thread nD τ).loc main_arg4) := W1_of_ne m ρ c main_arg4 (by decide)
theorem Vb_arg1 (c : Dev nD) : Vb m ρ c main_arg1 = m ((c : Thread nD τ).loc main_arg1) :=
  (W1_arr m ρ c 0).trans (((dat0 (Va m ρ) c).arrAt_in 0 rfl _).trans (A_eq0 (Va m ρ) c 0))
theorem Vb_arg3 (c : Dev nD) : Vb m ρ c main_arg3 = m ((c : Thread nD τ).loc main_arg3) :=
  (W1_arr m ρ c 1).trans (((dat0 (Va m ρ) c).arrAt_in 1 rfl _).trans (A_eq0 (Va m ρ) c 1))
include hfin0 in
theorem Vb_v0 (c : Dev nD) : Vb m ρ c main_v0
    = out0 (F := Ideal) (m ((c : Thread nD τ).loc main_arg1) : S2048x512.Idx → EReal) (m ((c : Thread nD τ).loc main_arg3) : S512x512.Idx → EReal) :=
  (W1_arr m ρ c 2).trans (hfin0 (Va m ρ) c)

/-! ## The arguments end as launched, the result at the specification -/

theorem W2_arg0 (c : Dev nD) : W2 m ρ c (Proc.devRef .tc main_arg0) = m ((c : Thread nD τ).loc main_arg0) :=
  (W2_arr m ρ c 1).trans ((((dat1 (Vb m ρ) c).arrAt_in 1 rfl _).trans (A_eq1 (Vb m ρ) c 1)).trans (Vb_arg0 m ρ c))
theorem W2_arg1 (c : Dev nD) : W2 m ρ c (Proc.devRef .tc main_arg1) = m ((c : Thread nD τ).loc main_arg1) :=
  (W2_of_ne m ρ c main_arg1 (by decide)).trans (Vb_arg1 m ρ c)
theorem W2_arg2 (c : Dev nD) : W2 m ρ c (Proc.devRef .tc main_arg2) = m ((c : Thread nD τ).loc main_arg2) :=
  (W2_arr m ρ c 0).trans ((((dat1 (Vb m ρ) c).arrAt_in 0 rfl _).trans (A_eq1 (Vb m ρ) c 0)).trans (Vb_arg2 m ρ c))
theorem W2_arg3 (c : Dev nD) : W2 m ρ c (Proc.devRef .tc main_arg3) = m ((c : Thread nD τ).loc main_arg3) :=
  (W2_arr m ρ c 2).trans ((((dat1 (Vb m ρ) c).arrAt_in 2 rfl _).trans (A_eq1 (Vb m ρ) c 2)).trans (Vb_arg3 m ρ c))
theorem W2_arg4 (c : Dev nD) : W2 m ρ c (Proc.devRef .tc main_arg4) = m ((c : Thread nD τ).loc main_arg4) :=
  (W2_arr m ρ c 3).trans ((((dat1 (Vb m ρ) c).arrAt_in 3 rfl _).trans (A_eq1 (Vb m ρ) c 3)).trans (Vb_arg4 m ρ c))

include hfin0 in
/-- What the specification builds from region 1's entry contents is the specification array of the launch arrays. -/
theorem Gout_eq (c : Dev nD) : Gout (Vb m ρ) c
    = Cert.Spec.Garr (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  funext idx
  unfold Gout Cert.Spec.Garr Cert.Spec.G
  rw [Vb_arg2, Vb_arg0, Vb_v0 m ρ hfin0, Vb_arg3, Vb_arg4]
  refine congrArg (fun kw => Cert.Spec.entry _ _ kw _ _ _) ?_
  funext k j
  exact out0_apply _ _ k j

include hfin0 hfin1 in
theorem W2_v1 (c : Dev nD) : W2 m ρ c (Proc.devRef .tc main_v1)
    = Cert.Spec.Garr (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
  (W2_arr m ρ c 5).trans ((hfin1 (Vb m ρ) c).trans (Gout_eq m ρ hfin0 c))

include hfin0 hfin1 in
/-- THE RUN, READ. -/
theorem run_value (hcut : ∀ (V : (c : Dev nD) → (b : Ref sig .tc) → Buf (Elt Ideal) ((c : Thread nD τ).loc b)) (c : Dev nD) (t : Fin cfg1.N), CutOut V c t) :
    θ_run defs (onTc (τ := τ) (main (F := Ideal))) ⟨m, fun _ => 0, ρ⟩ (fun r => ∀ c : Dev nD,
      r.2.mem ((c.tc : Thread nD τ).loc main_v1)
          = Cert.Spec.Garr (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v1 (by decide))).trans (W2_v1 m ρ hfin0 hfin1 c),
     (h c _ (mem_uc main_arg0 (by decide))).trans (W2_arg0 m ρ c),
     (h c _ (mem_uc main_arg1 (by decide))).trans (W2_arg1 m ρ c),
     (h c _ (mem_uc main_arg2 (by decide))).trans (W2_arg2 m ρ c),
     (h c _ (mem_uc main_arg3 (by decide))).trans (W2_arg3 m ρ c),
     (h c _ (mem_uc main_arg4 (by decide))).trans (W2_arg4 m ρ c)⟩)
    (run_all m ρ hcut)

end Cert.KernelIdeal.Run

end
-- ==== Proof.Blocks.lean ====
/-
  From blocks to arrays, at the extended reals.

  Region 1 has 63 grid points. Point t moves rows 800 t .. 800 t + 799 of adj (2048 columns), of ex and of the result
  (512 columns each), cut at the arrays' end: 800 rows at the first 62 points and 400 at the last, since
  50000 = 62 · 800 + 400; the three other windows are the whole arrays w1, w2 and kc · w1 at every point. So entry
  (r, k) of a block of adj or ex, at a row r inside the array, is entry (800 t + r, k) of the array, and entry (r, q)
  of what the body leaves in the output buffer is the specification's entry for row 800 t + r and column q: the
  specification's row i depends on row i of adj and of ex only. The rows 800 t .. 800 t + (rows inside) - 1 over the
  63 points are all 50000 rows, each point writes its block back, and so the output array ends at the specification's.
-/
import proofs.«156019_j41996190220783_2_alg».proof.Proof.Dats
import Idealize.ShloMosaic.Lib.Pipeline.Value

set_option maxRecDepth 16384

noncomputable section

namespace Cert.KernelIdeal.Run

open Cert.KernelIdeal Cert.KernelIdeal.Gen Cert.KernelIdeal.Body Cert.KernelIdeal.Pay
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (V : (c : Dev nD) → (b : Ref sig .tc) → Buf (Elt Ideal) ((c : Thread nD τ).loc b))

/-! ## Region 1: the index maps and the cuts, decided once over the 63 points -/

/-- The three 800-row windows are at block (t, 0) at point t; the three whole windows at block (0, 0). -/
theorem index1 : ∀ t : Fin cfg1.N,
    win1_0.index t 0 = t.val ∧ win1_0.index t 1 = 0 ∧ win1_1.index t 0 = t.val ∧ win1_1.index t 1 = 0
    ∧ win1_5.index t 0 = t.val ∧ win1_5.index t 1 = 0
    ∧ win1_2.index t 0 = 0 ∧ win1_2.index t 1 = 0 ∧ win1_3.index t 0 = 0 ∧ win1_3.index t 1 = 0
    ∧ win1_4.index t 0 = 0 ∧ win1_4.index t 1 = 0 :=
  (by decide +kernel : ∀ t : Fin grid1.N,
    win1_0.index t 0 = t.val ∧ win1_0.index t 1 = 0 ∧ win1_1.index t 0 = t.val ∧ win1_1.index t 1 = 0
    ∧ win1_5.index t 0 = t.val ∧ win1_5.index t 1 = 0
    ∧ win1_2.index t 0 = 0 ∧ win1_2.index t 1 = 0 ∧ win1_3.index t 0 = 0 ∧ win1_3.index t 1 = 0
    ∧ win1_4.index t 0 = 0 ∧ win1_4.index t 1 = 0)

/-- The three 800-row windows are cut alike on the rows and not at all on the columns, and the rows of point t's
    block inside the array end at row min 50000 (800 t + 800). -/
theorem xsize1 : ∀ t : Fin cfg1.N,
    win1_0.xsize (grid1.coords t) 0 = win1_5.xsize (grid1.coords t) 0
    ∧ win1_1.xsize (grid1.coords t) 0 = win1_5.xsize (grid1.coords t) 0
    ∧ win1_0.xsize (grid1.coords t) 1 = 2048 ∧ win1_1.xsize (grid1.coords t) 1 = 512
    ∧ win1_5.xsize (grid1.coords t) 1 = 512
    ∧ 800 * t.val + win1_5.xsize (grid1.coords t) 0 = min 50000 (800 * t.val + 800) :=
  (by decide +kernel : ∀ t : Fin grid1.N,
    win1_0.xsize (grid1.coords t) 0 = win1_5.xsize (grid1.coords t) 0
    ∧ win1_1.xsize (grid1.coords t) 0 = win1_5.xsize (grid1.coords t) 0
    ∧ win1_0.xsize (grid1.coords t) 1 = 2048 ∧ win1_1.xsize (grid1.coords t) 1 = 512
    ∧ win1_5.xsize (grid1.coords t) 1 = 512
    ∧ 800 * t.val + win1_5.xsize (grid1.coords t) 0 = min 50000 (800 * t.val + 800))

/-! ## Region 1: the blocks read at coordinates -/

/-- Entry x of adj's block at point t is entry (800 t + x 0, x 1) of adj. -/
theorem iblk1_0_apply (c : Dev nD) (t : Fin cfg1.N) (x : ((cfg1.win 0).xblock (cfg1.grid.coords t)).Idx) (k : S50000x2048.Idx)
    (hk0 : (k 0).val = 800 * t.val + (x 0).val) (hk1 : (k 1).val = (x 1).val) :
    iblk1 V c 0 t x = (V c main_arg2 : S50000x2048.Idx → EReal) k := by
  have hi := index1 t
  unfold iblk1
  rw [View.read_apply]
  show V c main_arg2 _ = V c main_arg2 _
  congr 1
  funext a
  apply Fin.ext
  match a with
  | ⟨0, _⟩ => show win1_0.index t 0 * 800 + 1 * (x 0).val = (k 0).val; rw [hi.1, hk0]; omega
  | ⟨1, _⟩ => show win1_0.index t 1 * 2048 + 1 * (x 1).val = (k 1).val; rw [hi.2.1, hk1]; omega

/-- Entry x of ex's block at point t is entry (800 t + x 0, x 1) of ex. -/
theorem iblk1_1_apply (c : Dev nD) (t : Fin cfg1.N) (x : ((cfg1.win 1).xblock (cfg1.grid.coords t)).Idx) (k : S50000x512.Idx)
    (hk0 : (k 0).val = 800 * t.val + (x 0).val) (hk1 : (k 1).val = (x 1).val) :
    iblk1 V c 1 t x = (V c main_arg0 : S50000x512.Idx → EReal) k := by
  have hi := index1 t
  unfold iblk1
  rw [View.read_apply]
  show V c main_arg0 _ = V c main_arg0 _
  congr 1
  funext a
  apply Fin.ext
  match a with
  | ⟨0, _⟩ => show win1_1.index t 0 * 800 + 1 * (x 0).val = (k 0).val; rw [hi.2.2.1, hk0]; omega
  | ⟨1, _⟩ => show win1_1.index t 1 * 512 + 1 * (x 1).val = (k 1).val; rw [hi.2.2.2.1, hk1]; omega

/-- The blocks of the three whole windows are the arrays w1, w2 and kc · w1 as found, at every point. -/
theorem iblk1_2_eq (c : Dev nD) (t : Fin cfg1.N) :
    (iblk1 V c 2 t : S512x512.Idx → EReal) = (V c main_arg3 : S512x512.Idx → EReal) := funext fun x => by
  have hi := index1 t
  unfold iblk1
  rw [View.read_apply]
  show V c main_arg3 _ = V c main_arg3 _
  congr 1
  funext a
  apply Fin.ext
  match a with
  | ⟨0, _⟩ => show win1_2.index t 0 * 512 + 1 * (x 0).val = (x 0).val; rw [hi.2.2.2.2.2.2.1]; omega
  | ⟨1, _⟩ => show win1_2.index t 1 * 512 + 1 * (x 1).val = (x 1).val; rw [hi.2.2.2.2.2.2.2.1]; omega
theorem iblk1_3_eq (c : Dev nD) (t : Fin cfg1.N) :
    (iblk1 V c 3 t : S512x512.Idx → EReal) = (V c main_arg4 : S512x512.Idx → EReal) := funext fun x => by
  have hi := index1 t
  unfold iblk1
  rw [View.read_apply]
  show V c main_arg4 _ = V c main_arg4 _
  congr 1
  funext a
  apply Fin.ext
  match a with
  | ⟨0, _⟩ => show win1_3.index t 0 * 512 + 1 * (x 0).val = (x 0).val; rw [hi.2.2.2.2.2.2.2.2.1]; omega
  | ⟨1, _⟩ => show win1_3.index t 1 * 512 + 1 * (x 1).val = (x 1).val; rw [hi.2.2.2.2.2.2.2.2.2.1]; omega
theorem iblk1_4_eq (c : Dev nD) (t : Fin cfg1.N) :
    (iblk1 V c 4 t : S2048x512.Idx → EReal) = (V c main_v0 : S2048x512.Idx → EReal) := funext fun x => by
  have hi := index1 t
  unfold iblk1
  rw [View.read_apply]
  show V c main_v0 _ = V c main_v0 _
  congr 1
  funext a
  apply Fin.ext
  match a with
  | ⟨0, _⟩ => show win1_4.index t 0 * 2048 + 1 * (x 0).val = (x 0).val; rw [hi.2.2.2.2.2.2.2.2.2.2.1]; omega
  | ⟨1, _⟩ => show win1_4.index t 1 * 512 + 1 * (x 1).val = (x 1).val; rw [hi.2.2.2.2.2.2.2.2.2.2.2]; omega

/-- At a row r inside the array, the adj buffer — its block there, anything past the array's end — holds
    adj's entry (800 t + r, k). -/
theorem fill1_0_apply (c : Dev nD) (t : Fin cfg1.N) (d0 : (cfg1.win 0).block.Idx → Elt Ideal (cfg1.win 0).elt)
    (r : Fin 800) (k : Fin 2048) (hr : r.val < win1_5.xsize (grid1.coords t) 0) (idx : S50000x2048.Idx)
    (h0 : (idx 0).val = 800 * t.val + r.val) (h1 : (idx 1).val = k.val) :
    (cfg1.win 0).fill (cfg1.grid.coords t) d0 (iblk1 V c 0 t) (ix2 r k) = (V c main_arg2 : S50000x2048.Idx → EReal) idx := by
  have hx := xsize1 t
  have hm : (cfg1.win 0).moved (cfg1.grid.coords t) (ix2 r k) = true :=
    ((cfg1.win 0).moved_iff _ _).mpr fun a => by
      match a with
      | ⟨0, _⟩ => show r.val < win1_0.xsize (grid1.coords t) 0; rw [hx.1]; exact hr
      | ⟨1, _⟩ => show k.val < win1_0.xsize (grid1.coords t) 1; rw [hx.2.2.1]; exact k.isLt
  unfold Pipeline.Window.fill
  rw [dif_pos hm]
  exact iblk1_0_apply V c t _ idx h0 h1

/-- At a row r inside the array, the ex buffer holds ex's entry (800 t + r, l). -/
theorem fill1_1_apply (c : Dev nD) (t : Fin cfg1.N) (d1 : (cfg1.win 1).block.Idx → Elt Ideal (cfg1.win 1).elt)
    (r : Fin 800) (l : Fin 512) (hr : r.val < win1_5.xsize (grid1.coords t) 0) (idx : S50000x512.Idx)
    (h0 : (idx 0).val = 800 * t.val + r.val) (h1 : (idx 1).val = l.val) :
    (cfg1.win 1).fill (cfg1.grid.coords t) d1 (iblk1 V c 1 t) (ix2 r l) = (V c main_arg0 : S50000x512.Idx → EReal) idx := by
  have hx := xsize1 t
  have hm : (cfg1.win 1).moved (cfg1.grid.coords t) (ix2 r l) = true :=
    ((cfg1.win 1).moved_iff _ _).mpr fun a => by
      match a with
      | ⟨0, _⟩ => show r.val < win1_1.xsize (grid1.coords t) 0; rw [hx.2.1]; exact hr
      | ⟨1, _⟩ => show l.val < win1_1.xsize (grid1.coords t) 1; rw [hx.2.2.2.1]; exact l.isLt
  unfold Pipeline.Window.fill
  rw [dif_pos hm]
  exact iblk1_1_apply V c t _ idx h0 h1

/-! ## Region 1: what the body leaves, on the rows inside the array -/

/-- On the rows inside the array, what the body leaves in the output buffer at point t — whatever fills the two clipped
    input buffers past the array's end — is the block of the specification array. -/
theorem cut_out1 (c : Dev nD) (t : Fin cfg1.N)
    (d0 : (cfg1.win 0).block.Idx → Elt Ideal (cfg1.win 0).elt) (d1 : (cfg1.win 1).block.Idx → Elt Ideal (cfg1.win 1).elt) :
    (cfg1.win 5).cut (cfg1.grid.coords t)
        (out1 (F := Ideal) ((cfg1.win 0).fill (cfg1.grid.coords t) d0 (iblk1 V c 0 t)) ((cfg1.win 1).fill (cfg1.grid.coords t) d1 (iblk1 V c 1 t))
          (iblk1 V c 2 t) (iblk1 V c 3 t) (iblk1 V c 4 t))
      = ((cfg1.win 5).blk t).view.read (Elt Ideal) (Gout V c) := by
  funext y
  have hi := index1 t
  have hx := xsize1 t
  have hy0 : (y 0).val < win1_5.xsize (grid1.coords t) 0 := (y 0).isLt
  have hy1 : (y 1).val < win1_5.xsize (grid1.coords t) 1 := (y 1).isLt
  have hr800 : (y 0).val < 800 := Nat.lt_of_lt_of_le hy0 (win1_5.xsize_le (grid1.coords t) 0)
  have hq512 : (y 1).val < 512 := by rw [hx.2.2.2.2.1] at hy1; exact hy1
  -- the block's index of y, by coordinates
  have hxi : (cfg1.win 5).xinj (cfg1.grid.coords t) y = ix2 (⟨(y 0).val, hr800⟩ : Fin 800) (⟨(y 1).val, hq512⟩ : Fin 512) :=
    funext fun a => Fin.ext (by match a with | ⟨0, _⟩ => rfl | ⟨1, _⟩ => rfl)
  show out1 (F := Ideal) _ _ _ _ _ ((cfg1.win 5).xinj (cfg1.grid.coords t) y) = _
  rw [hxi, out1_apply, View.read_apply]
  show _ = Gout V c (((cfg1.win 5).blk t).view.emb y)
  -- the array's index of y, by coordinates
  have e0 : ((((cfg1.win 5).blk t).view.emb y) 0).val = 800 * t.val + (y 0).val := by
    show win1_5.index t 0 * 800 + 1 * (y 0).val = _; rw [hi.2.2.2.2.1]; omega
  have e1 : ((((cfg1.win 5).blk t).view.emb y) 1).val = (y 1).val := by
    show win1_5.index t 1 * 512 + 1 * (y 1).val = _; rw [hi.2.2.2.2.2.1]; omega
  unfold Gout
  rw [iblk1_2_eq, iblk1_3_eq, iblk1_4_eq]
  have hA : (fun k : Fin 2048 => (cfg1.win 0).fill (cfg1.grid.coords t) d0 (iblk1 V c 0 t) (ix2 (⟨(y 0).val, hr800⟩ : Fin 800) k))
      = fun k => (V c main_arg2 : S50000x2048.Idx → EReal) (ix2 ((((cfg1.win 5).blk t).view.emb y) 0) k) :=
    funext fun k => fill1_0_apply V c t d0 _ k hy0 _ e0 rfl
  have hE : (fun l : Fin 512 => (cfg1.win 1).fill (cfg1.grid.coords t) d1 (iblk1 V c 1 t) (ix2 (⟨(y 0).val, hr800⟩ : Fin 800) l))
      = fun l => (V c main_arg0 : S50000x512.Idx → EReal) (ix2 ((((cfg1.win 5).blk t).view.emb y) 0) l) :=
    funext fun l => fill1_1_apply V c t d1 _ l hy0 _ e0 rfl
  have hq : (⟨(y 1).val, hq512⟩ : Fin 512) = (((cfg1.win 5).blk t).view.emb y) 1 := Fin.ext e1.symm
  rw [hA, hE, hq]

/-! ## Region 1: the output array after the last point -/

/-- Every index of the result array is in the block of the point its row belongs to: row i is among rows
    800 t .. min 50000 (800 t + 800) - 1 for t = i / 800, and every column is in every block. That point writes
    its block back, as every point does. -/
theorem cover1_5 (i : S50000x512.Idx) :
    ∃ t : Fin cfg1.N, (cfg1.win 5).flush t = true ∧ i ∈ ((cfg1.win 5).blk t).view.set := by
  have h0 : (i 0 : Nat) < 50000 := (i 0).isLt
  have h1 : (i 1 : Nat) < 512 := (i 1).isLt
  have hN : cfg1.N = 63 := N_1
  obtain ⟨t, ht⟩ : ∃ t : Fin cfg1.N, t.val = (i 0 : Nat) / 800 := ⟨⟨(i 0 : Nat) / 800, by rw [hN]; omega⟩, rfl⟩
  refine ⟨t, flush1_5 t, ?_⟩
  have hi := index1 t
  have hx := xsize1 t
  show i ∈ ((View.whole main_v1).slice (win1_5.rect t)).set
  rw [View.set_slice_whole, Rect.mem_set_unit]
  intro a
  match a with
  | ⟨0, _⟩ =>
    show win1_5.index t 0 * win1_5.size 0 ≤ (i 0 : Nat) ∧ (i 0 : Nat) < win1_5.index t 0 * win1_5.size 0 + win1_5.xsize (grid1.coords t) 0
    rw [hi.2.2.2.2.1, show win1_5.size 0 = 800 from rfl]
    have hrows := hx.2.2.2.2.2
    omega
  | ⟨1, _⟩ =>
    show win1_5.index t 1 * win1_5.size 1 ≤ (i 1 : Nat) ∧ (i 1 : Nat) < win1_5.index t 1 * win1_5.size 1 + win1_5.xsize (grid1.coords t) 1
    rw [hi.2.2.2.2.2.1, hx.2.2.2.2.1]
    omega

/-- After region 1 its output array holds the specification array. -/
theorem final1 (c : Dev nD) : (dat1 V c).arrAt 5 cfg1.N = Gout V c :=
  (dat1 V c).arrAt_eq_of_cover 5 (Gout V c) (fun t _ => by
      show (cfg1.win 5).cut (cfg1.grid.coords t) ((dat1 V c).after 5 t) = _
      rw [after1_5, Window.cut_fill]) cover1_5

end Cert.KernelIdeal.Run

end
-- ==== Proof.Blocks0.lean ====
/-
  Region 0 of the idealized program at the extended reals: what its output array holds when the region is left.
  The region has one grid point and its three windows are whole: each window's block there is block (0, 0) of an array
  of the block's own size, read through zero offsets, which is the array itself. So the two input blocks are the kc and
  w1 arrays as found, the one write-back writes their product over the whole output array, and that one block covers
  the array: the output array ends holding the product.
-/
import proofs.«156019_j41996190220783_2_alg».proof.Proof.Dats
import Idealize.ShloMosaic.Lib.Pipeline.Value

set_option maxRecDepth 16384

noncomputable section

namespace Cert.KernelIdeal.Run

open Cert.KernelIdeal Cert.KernelIdeal.Gen Cert.KernelIdeal.Body Cert.KernelIdeal.Pay
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-- The kc window's block at the one point is the kc array: block (0, 0) of the array's own size, read through zero
    offsets. -/
theorem z0_iblk_0 (c : Dev nD) (t : Fin cfg0.N) : iblk0 V c 0 t = (V c main_arg1 : S2048x512.Idx → EReal) := by
  obtain rfl : t = t0_0 := fin_N0 t
  unfold iblk0
  have hz' : (fun a => win0_0.index t0_0 a * main_arg1.ty.shape.size a) = fun _ => 0 := funext fun a => by fin_cases a <;> decide
  exact Memref.read_access_unit_zero (Elt Ideal) main_arg1 hz' (fun a => by rw [congrFun hz' a]; simp) (V c main_arg1)

/-- The w1 window's block at the one point is the w1 array, likewise. -/
theorem z0_iblk_1 (c : Dev nD) (t : Fin cfg0.N) : iblk0 V c 1 t = (V c main_arg3 : S512x512.Idx → EReal) := by
  obtain rfl : t = t0_0 := fin_N0 t
  unfold iblk0
  have hz' : (fun a => win0_1.index t0_0 a * main_arg3.ty.shape.size a) = fun _ => 0 := funext fun a => by fin_cases a <;> decide
  exact Memref.read_access_unit_zero (Elt Ideal) main_arg3 hz' (fun a => by rw [congrFun hz' a]; simp) (V c main_arg3)

/-- The product of the kc and w1 arrays as found, as contents of the output array. -/
abbrev z0_G (c : Dev nD) : Buf (Elt Ideal) ((c : Thread nD τ).loc main_v0) :=
  out0 (F := Ideal) (V c main_arg1 : S2048x512.Idx → EReal) (V c main_arg3 : S512x512.Idx → EReal)

/-- The one write-back writes that product: the output window is whole, so what the body leaves is written uncut, and
    block (0, 0) of the product read through zero offsets is the product. -/
theorem z0_flushed (c : Dev nD) (t : Fin cfg0.N) (hf : (cfg0.win 2).flush t = true) :
    (dat0 V c).flushed 2 t = ((cfg0.win 2).blk t).view.read (Elt Ideal) (z0_G V c) := by
  obtain rfl : t = t0_0 := fin_N0 t
  show (cfg0.win 2).cut (grid0.coords t0_0) ((dat0 V c).after 2 t0_0) = _
  rw [after0_2, z0_iblk_0, z0_iblk_1]
  have hz' : (fun a => win0_2.index t0_0 a * main_v0.ty.shape.size a) = fun _ => 0 := funext fun a => by fin_cases a <;> decide
  exact (Memref.read_access_unit_zero (Elt Ideal) main_v0 hz' (fun a => by rw [congrFun hz' a]; simp) (z0_G V c)).symm

/-- After region 0 its output array holds the product of the kc and w1 arrays as found. -/
theorem final0 (c : Dev nD) : (dat0 V c).arrAt 2 cfg0.N
    = out0 (F := Ideal) (V c main_arg1 : S2048x512.Idx → EReal) (V c main_arg3 : S512x512.Idx → EReal) :=
  (dat0 V c).arrAt_eq_of_cover 2 (z0_G V c) (z0_flushed V c) fun i =>
    ⟨t0_0, flush0_2 t0_0, by
      show i ∈ ((View.whole main_v0).slice (win0_2.rect t0_0)).set
      rw [View.set_slice_whole, Rect.mem_set_unit]
      intro a
      have h0 : (i 0 : Nat) < 2048 := (i 0).isLt
      have h1 : (i 1 : Nat) < 512 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 2048 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 512 from by decide +kernel]; omega⟩

end Cert.KernelIdeal.Run

end
-- ==== Proof.RefRun.lean ====
/-
  The reference program's run, read back.

  @main of the reference is a straight line of twenty host operations once its call of ELU — and, inside it, ELU's
  two calls of the selection function — are replaced by the callees' bodies over the calls' buffer records: four
  matrix products (kc · w1, ex · w1, adj · (kc · w1), (ex · w1) · w2), the entrywise product p of the last two, and
  ELU of p spelt select(p > 0, p, 1 · expm1(select(p > 0, 0, p))). Every weakly fair execution of such a line
  terminates with each buffer at the fold of the operations' results over the launch contents; at the result
  buffer that fold is the operations' composed term of the five argument arrays (`refTerm`), and at an argument
  buffer, which no operation writes, it is the launch contents. Read at an index (i, j) at the ideal values, that
  term is ELU of (the sum over k < 2048 of adj (i, k) · (kc · w1) (k, j)) · (the sum over k < 512 of
  (ex · w1) (i, k) · w2 (k, j)): the specification's array, which the run's last statement names.
-/
import proofs.«156019_j41996190220783_2_alg».proof.Proof.Gen.ReferenceIdeal
import Idealize.ShloMosaic.Lib.StableHlo.Run
import proofs.«156019_j41996190220783_2_alg».proof.Proof.Spec
import proofs.«156019_j41996190220783_2_alg».proof.Proof.LibRowDot

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

variable {F : FTy → Type} [FloatOps F]

/-- @main's twenty operations, in order: its own five (the four matrix products and the entrywise product), then
    ELU's over the record `main_call0` — the zero and its broadcast, the test p > 0, the same three once more, a third
    zero; the selection function's three over `main_call0.call0` (the zero converted to its own type, broadcast, the
    select); expm1, the one and its broadcast, the product; the second selection function's select over `main_call0.call1`. -/
abbrev ops : List (HloOp τ sig (Elt F)) :=
  [ binary main_arg1 main_arg3 main_v0 ((fun l r => Host.dotGeneral dot_S2048x512_S512x512_S2048x512_1_0_0_1_n_n none l r) : (⟨S2048x512, .f32⟩ : BufTy).Contents (Elt F) → (⟨S512x512, .f32⟩ : BufTy).Contents (Elt F) → (⟨S2048x512, .f32⟩ : BufTy).Contents (Elt F)),
    binary main_arg0 main_arg3 main_v1 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    binary main_arg2 main_v0 main_v2 ((fun l r => Host.dotGeneral dot_S50000x2048_S2048x512_S50000x512_1_0_0_1_n_n none l r) : (⟨S50000x2048, .f32⟩ : BufTy).Contents (Elt F) → (⟨S2048x512, .f32⟩ : BufTy).Contents (Elt F) → (⟨S50000x512, .f32⟩ : BufTy).Contents (Elt F)),
    binary main_v1 main_arg4 main_v3 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
    binary main_v2 main_v3 main_v4 (mulf : (⟨S50000x512, .f32⟩ : BufTy).Contents (Elt F) → (⟨S50000x512, .f32⟩ : BufTy).Contents (Elt F) → (⟨S50000x512, .f32⟩ : BufTy).Contents (Elt F)),
    TRef.nullary main_call0.cst (constant S_ .f32 0x00000000#32),
    TRef.unary main_call0.cst main_call0.v0 (broadcastInDim S50000x512 ![] bcast_S_S50000x512),
    TRef.binary (.of main_v4) main_call0.v0 main_call0.v1 (cmpf .ogt),
    TRef.nullary main_call0.cst_0 (constant S_ .f32 0x00000000#32),
    TRef.unary main_call0.cst_0 main_call0.v2 (broadcastInDim S50000x512 ![] bcast_S_S50000x512),
    TRef.binary (.of main_v4) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x512 ![] bcast_S_S50000x512),
    TRef.ternary main_call0.v3 main_call0.call0.v1 (.of main_v4) main_call0.call0.v2 select,
    TRef.unary main_call0.call0.v2 main_call0.v5 Host.expm1,
    TRef.nullary main_call0.cst_2 (constant S_ .f32 0x3F800000#32),
    TRef.unary main_call0.cst_2 main_call0.v6 (broadcastInDim S50000x512 ![] bcast_S_S50000x512),
    TRef.binary main_call0.v6 main_call0.v5 main_call0.v7 mulf,
    TRef.ternary main_call0.v1 (.of main_v4) main_call0.v7 main_call0.call1.v0 select ]

-- twenty binds re-associated: the rewrite under the chain recurses once per statement
set_option maxRecDepth 1024 in
/-- @main is that straight line: the callees' definitions unfolded at their calls and the records at their fields,
    both sides are one chain of host steps once sequencing is re-associated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., binary_bufs_sub .., binary_bufs_sub ..,
    nullary_bufs_sub .., unary_bufs_sub .., binary_bufs_sub .., nullary_bufs_sub .., unary_bufs_sub ..,
    binary_bufs_sub .., nullary_bufs_sub .., unary_bufs_sub .., unary_bufs_sub .., ternary_bufs_sub ..,
    unary_bufs_sub .., nullary_bufs_sub .., unary_bufs_sub .., binary_bufs_sub .., ternary_bufs_sub ..⟩

/-- The operations' composed term of the five argument arrays ex, kc, adj, w1, w2: with
    p = (adj · (kc · w1)) ∘ ((ex · w1) · w2) entrywise and z, o the broadcasts of the literals 0 and 1,
    select(p > z, p, o ∘ expm1(select(p > z, z, p))). -/
def refTerm (x0 : (⟨S50000x512, .f32⟩ : BufTy).Contents (Elt F)) (x1 : (⟨S2048x512, .f32⟩ : BufTy).Contents (Elt F))
    (x2 : (⟨S50000x2048, .f32⟩ : BufTy).Contents (Elt F)) (x3 x4 : (⟨S512x512, .f32⟩ : BufTy).Contents (Elt F)) :
    (⟨S50000x512, .f32⟩ : BufTy).Contents (Elt F) :=
  select
    (cmpf .ogt
      (mulf (Host.dotGeneral dot_S50000x2048_S2048x512_S50000x512_1_0_0_1_n_n none x2 (Host.dotGeneral dot_S2048x512_S512x512_S2048x512_1_0_0_1_n_n none x1 x3))
        (Host.dotGeneral dot_S50000x512_S512x512_S50000x512_1_0_0_1_n_n none (Host.dotGeneral dot_S50000x512_S512x512_S50000x512_1_0_0_1_n_n none x0 x3) x4))
      (broadcastInDim S50000x512 ![] bcast_S_S50000x512 (constant S_ .f32 0x00000000#32)))
    (mulf (Host.dotGeneral dot_S50000x2048_S2048x512_S50000x512_1_0_0_1_n_n none x2 (Host.dotGeneral dot_S2048x512_S512x512_S2048x512_1_0_0_1_n_n none x1 x3))
      (Host.dotGeneral dot_S50000x512_S512x512_S50000x512_1_0_0_1_n_n none (Host.dotGeneral dot_S50000x512_S512x512_S50000x512_1_0_0_1_n_n none x0 x3) x4))
    (mulf (broadcastInDim S50000x512 ![] bcast_S_S50000x512 (constant S_ .f32 0x3F800000#32))
      (Host.expm1
        (select
          (cmpf .ogt
            (mulf (Host.dotGeneral dot_S50000x2048_S2048x512_S50000x512_1_0_0_1_n_n none x2 (Host.dotGeneral dot_S2048x512_S512x512_S2048x512_1_0_0_1_n_n none x1 x3))
              (Host.dotGeneral dot_S50000x512_S512x512_S50000x512_1_0_0_1_n_n none (Host.dotGeneral dot_S50000x512_S512x512_S50000x512_1_0_0_1_n_n none x0 x3) x4))
            (broadcastInDim S50000x512 ![] bcast_S_S50000x512 (constant S_ .f32 0x00000000#32)))
          (broadcastInDim S50000x512 ![] bcast_S_S50000x512 (id (constant S_ .f32 0x00000000#32)))
          (mulf (Host.dotGeneral dot_S50000x2048_S2048x512_S50000x512_1_0_0_1_n_n none x2 (Host.dotGeneral dot_S2048x512_S512x512_S2048x512_1_0_0_1_n_n none x1 x3))
            (Host.dotGeneral dot_S50000x512_S512x512_S50000x512_1_0_0_1_n_n none (Host.dotGeneral dot_S50000x512_S512x512_S50000x512_1_0_0_1_n_n none x0 x3) x4)))))

/-- The fold at the result buffer is the composed term: each operation's result read at its own buffer is its
    function of the operands' contents, and at any other buffer what was there; the typed references' transports
    are the identity at these literal references. -/
theorem out_eq (V : Valuation τ sig (Elt F)) :
    after ops V (main_v5 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes an argument buffer: the fold leaves each at its launch contents. -/
theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp
theorem arg4_eq (V : Valuation τ sig (Elt F)) :
    after ops V (main_arg4 : DevRef τ sig) = V (main_arg4 : DevRef τ sig) := by
  after_results_simp

/-- On every device, for any float values, from any memory with zero counters: every weakly fair execution of @main
    terminates with the result at the operations' composed term of the arguments and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v5).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

/-! ## The composed term is the specification

The term is ELU, spelt with selects, of the entrywise product p of two matrix products. Read at an index: each
matrix product is the sum over the contracted coordinate of the operands' products (the printed dimension numbers
are the plain ones of a rows-by-columns product), and the spelt ELU is the identity where p is positive and
exp p - 1 elsewhere — the test p > 0 decides both selects, the literal 0 is the number 0 and the literal 1 the
number 1, which drops out of the product. -/

/-- The printed dimension numbers are the plain ones of an [M, K] by [K, N] product. -/
theorem dot_kc_w1_eq : dot_S2048x512_S512x512_S2048x512_1_0_0_1_n_n = DotDims.plain 2048 512 512 := rfl
theorem dot_rows_w_eq : dot_S50000x512_S512x512_S50000x512_1_0_0_1_n_n = DotDims.plain 50000 512 512 := rfl
theorem dot_adj_eq : dot_S50000x2048_S2048x512_S50000x512_1_0_0_1_n_n = DotDims.plain 50000 2048 512 := rfl

/-- A [2048, 512] by [512, 512] product at (p, q): the sum over k < 512 of l (p, k) · r (k, q). -/
theorem dot_kc_w1_apply (l : (⟨2, ![2048, 512]⟩ : Shape).Idx → EReal) (r : (⟨2, ![512, 512]⟩ : Shape).Idx → EReal)
    (p : Fin 2048) (q : Fin 512) :
    Host.dotGeneral (F := Ideal) (φ₁ := .f32) (φ₂ := .f32) dot_S2048x512_S512x512_S2048x512_1_0_0_1_n_n none l r (ix2 p q)
      = ∑ k : Fin 512, l (ix2 p k) * r (ix2 k q) := by
  rw [dot_kc_w1_eq]
  exact RowDot.dotGeneral_apply (φ₁ := .f32) (φ₂ := .f32) none .single l r p q

/-- A [50000, 512] by [512, 512] product at (p, q): the sum over k < 512 of l (p, k) · r (k, q). -/
theorem dot_rows_w_apply (l : (⟨2, ![50000, 512]⟩ : Shape).Idx → EReal) (r : (⟨2, ![512, 512]⟩ : Shape).Idx → EReal)
    (p : Fin 50000) (q : Fin 512) :
    Host.dotGeneral (F := Ideal) (φ₁ := .f32) (φ₂ := .f32) dot_S50000x512_S512x512_S50000x512_1_0_0_1_n_n none l r (ix2 p q)
      = ∑ k : Fin 512, l (ix2 p k) * r (ix2 k q) := by
  rw [dot_rows_w_eq]
  exact RowDot.dotGeneral_apply (φ₁ := .f32) (φ₂ := .f32) none .single l r p q

/-- A [50000, 2048] by [2048, 512] product at (p, q): the sum over k < 2048 of l (p, k) · r (k, q). -/
theorem dot_adj_apply (l : (⟨2, ![50000, 2048]⟩ : Shape).Idx → EReal) (r : (⟨2, ![2048, 512]⟩ : Shape).Idx → EReal)
    (p : Fin 50000) (q : Fin 512) :
    Host.dotGeneral (F := Ideal) (φ₁ := .f32) (φ₂ := .f32) dot_S50000x2048_S2048x512_S50000x512_1_0_0_1_n_n none l r (ix2 p q)
      = ∑ k : Fin 2048, l (ix2 p k) * r (ix2 k q) := by
  rw [dot_adj_eq]
  exact RowDot.dotGeneral_apply (φ₁ := .f32) (φ₂ := .f32) none .single l r p q

/-- The literal 1.0 is the number 1. -/
theorem ofBits_one_f32 : Ideal.ofBits .f32 0x3F800000#32 = 1 := by
  simp [Ideal.ofBits, Ideal.ieee, -EReal.coe_mul]; norm_num

/-- ELU as the program spells it, of an array p:
    select(p > 0, p, 1 · expm1(select(p > 0, 0, p))), the 0 and the 1 broadcast literals. -/
def eluTerm (p : (⟨2, ![50000, 512]⟩ : Shape).Idx → EReal) : (⟨2, ![50000, 512]⟩ : Shape).Idx → EReal :=
  select
    (cmpf (F := Ideal) (φ := .f32) .ogt p (broadcastInDim S50000x512 ![] bcast_S_S50000x512 (constant (F := Ideal) S_ .f32 0x00000000#32)))
    p
    (mulf (F := Ideal) (φ := .f32) (broadcastInDim S50000x512 ![] bcast_S_S50000x512 (constant (F := Ideal) S_ .f32 0x3F800000#32))
      (Host.expm1 (F := Ideal) (φ := .f32)
        (select
          (cmpf (F := Ideal) (φ := .f32) .ogt p (broadcastInDim S50000x512 ![] bcast_S_S50000x512 (constant (F := Ideal) S_ .f32 0x00000000#32)))
          (broadcastInDim S50000x512 ![] bcast_S_S50000x512 (id (constant (F := Ideal) S_ .f32 0x00000000#32)))
          p)))

/-- The spelt ELU at an index is ELU of the entry: where the entry is positive both selects take their first
    operand and the result is the entry; elsewhere both take their second and the result is 1 · (exp p - 1). -/
theorem eluTerm_apply (p : (⟨2, ![50000, 512]⟩ : Shape).Idx → EReal) (idx : (⟨2, ![50000, 512]⟩ : Shape).Idx) :
    eluTerm p idx = Cert.Spec.elu (p idx) := by
  show Scalar.select (Ideal.cmp .ogt (p idx) (Ideal.ofBits .f32 0x00000000#32)) (p idx)
      (Ideal.ofBits .f32 0x3F800000#32
        * (Ideal.exp (Scalar.select (Ideal.cmp .ogt (p idx) (Ideal.ofBits .f32 0x00000000#32))
            (Ideal.ofBits .f32 0x00000000#32) (p idx)) - 1)) = _
  rw [Ideal.ofBits_zero_f32, ofBits_one_f32, one_mul]
  have hc : Ideal.cmp .ogt (p idx) 0 = BitVec.ofBool (decide (0 < p idx)) := rfl
  rw [hc]
  unfold Cert.Spec.elu
  by_cases h : 0 < p idx
  · rw [decide_eq_true h, if_pos h]
    exact select_one _ _
  · have hf : BitVec.ofBool false = 0#1 := rfl
    rw [decide_eq_false h, if_neg h, hf, select_zero, select_zero]

/-- The composed term is the spelt ELU of the entrywise product of adj · (kc · w1) and (ex · w1) · w2. -/
theorem refTerm_def (x0 : (⟨2, ![50000, 512]⟩ : Shape).Idx → EReal) (x1 : (⟨2, ![2048, 512]⟩ : Shape).Idx → EReal)
    (x2 : (⟨2, ![50000, 2048]⟩ : Shape).Idx → EReal) (x3 x4 : (⟨2, ![512, 512]⟩ : Shape).Idx → EReal) :
    refTerm (F := Ideal) x0 x1 x2 x3 x4
      = eluTerm (mulf (F := Ideal) (φ := .f32)
          (Host.dotGeneral (F := Ideal) (φ₁ := .f32) (φ₂ := .f32) dot_S50000x2048_S2048x512_S50000x512_1_0_0_1_n_n none x2
            (Host.dotGeneral (F := Ideal) (φ₁ := .f32) (φ₂ := .f32) dot_S2048x512_S512x512_S2048x512_1_0_0_1_n_n none x1 x3))
          (Host.dotGeneral (F := Ideal) (φ₁ := .f32) (φ₂ := .f32) dot_S50000x512_S512x512_S50000x512_1_0_0_1_n_n none
            (Host.dotGeneral (F := Ideal) (φ₁ := .f32) (φ₂ := .f32) dot_S50000x512_S512x512_S50000x512_1_0_0_1_n_n none x0 x3) x4)) := rfl

/-- The composed term of ex, kc, adj, w1, w2 is the specification's array: at (i, j) both are ELU of
    (the sum over k < 2048 of adj (i, k) · (kc · w1) (k, j)) · (the sum over k < 512 of (ex · w1) (i, k) · w2 (k, j)). -/
theorem refTerm_eq (x0 : (⟨2, ![50000, 512]⟩ : Shape).Idx → EReal) (x1 : (⟨2, ![2048, 512]⟩ : Shape).Idx → EReal)
    (x2 : (⟨2, ![50000, 2048]⟩ : Shape).Idx → EReal) (x3 x4 : (⟨2, ![512, 512]⟩ : Shape).Idx → EReal) :
    refTerm (F := Ideal) x0 x1 x2 x3 x4 = Cert.Spec.Garr x0 x1 x2 x3 x4 := by
  funext idx
  obtain ⟨i, j, rfl⟩ : ∃ (i : Fin 50000) (j : Fin 512), idx = ix2 i j := ⟨idx 0, idx 1, eq_ix2 idx⟩
  rw [Cert.Spec.Garr_ix2, refTerm_def, eluTerm_apply, mulf_apply, dot_adj_apply, dot_rows_w_apply]
  simp only [Cert.Spec.G, Cert.Spec.entry, Cert.Spec.kcW, Cert.Spec.rowW, dot_kc_w1_apply, dot_rows_w_apply]

/-- On every device, from any memory with zero counters: every weakly fair execution of the reference's @main
    terminates with the result buffer at the specification's array of the five argument arrays, and the
    argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v5)
            = Cert.Spec.Garr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun _ h c => ⟨(h c).1.trans (refTerm_eq _ _ _ _ _), (h c).2⟩) (run_term (F := Ideal) m ρ)

end Cert.ReferenceIdeal.RefValue

end
-- ==== Proof.lean ====
/-
  The kernel computes ELU of (adj · (kc · w1)) ⊙ ((ex · w1) · w2) in two regions, and the reference computes the same
  array with four whole matrix products, an entrywise product and jax's ELU.

  Region 0 forms kc · w1 as one [2048, 512] block. Region 1 walks the 50000 rows of adj, ex and the result in 63 blocks
  of 800 rows, the last with only 400 rows inside the arrays; for each block it forms (adj-block · (kc · w1)) and
  ((ex-block · w1) · w2), multiplies them entry by entry and applies ELU as "p if p is positive, exp p - 1 otherwise".
  Every product contracts over columns, so row r of a block's result depends on row r of the adj and ex blocks only:
  whatever fills the last block's 400 rows past the arrays' end never reaches a row that is written back.

  On the extended reals a change of float format is the identity and a matrix product into a zero accumulator is the
  plain sum over the contracted coordinate, so both programs' results are, entry (i, j),
      ELU ((∑ k < 2048, adj (i, k) · (∑ l < 512, kc (k, l) · w1 (l, j))) · (∑ k < 512, (∑ l < 512, ex (i, l) · w1 (l, k)) · w2 (k, j)))
  (the specification, Proof/Spec.lean). The reference's ELU is select (x > 0, x, 1 · expm1 (select (x > 0, 0, x))):
  for x ≤ 0 the inner select is x, expm1 is exp - 1 and 1 · y = y, so it is the same function. No law used needs the
  inputs to be finite: the sums are the same sums on both sides.

  The claims: each program runs to the end without a fault and leaves its arguments as launched (for the word-level
  kernel the staging buffers' contents are not named at all; for the two idealized programs the frame is their value
  run with the result dropped); the idealization rewrote nothing; and the two idealized programs, from memories
  agreeing on the arguments, end with the same result array.
-/
import proofs.«156019_j41996190220783_2_alg».proof.Defs
import proofs.«156019_j41996190220783_2_alg».proof.Proof.Gen.Kernel
import proofs.«156019_j41996190220783_2_alg».proof.Proof.Gen.Kernel.Skeleton
import proofs.«156019_j41996190220783_2_alg».proof.Proof.Gen.Kernel.Launch
import proofs.«156019_j41996190220783_2_alg».proof.Proof.Gen.Kernel.Regions
import proofs.«156019_j41996190220783_2_alg».proof.Proof.Gen.Kernel.Points
import proofs.«156019_j41996190220783_2_alg».proof.Proof.Gen.KernelIdeal
import proofs.«156019_j41996190220783_2_alg».proof.Proof.Gen.KernelIdeal.Skeleton
import proofs.«156019_j41996190220783_2_alg».proof.Proof.Gen.KernelIdeal.Launch
import proofs.«156019_j41996190220783_2_alg».proof.Proof.Gen.KernelIdeal.Regions
import proofs.«156019_j41996190220783_2_alg».proof.Proof.Gen.KernelIdeal.Points
import proofs.«156019_j41996190220783_2_alg».proof.Proof.Gen.ReferenceIdeal
import proofs.«156019_j41996190220783_2_alg».proof.Proof.Gen.Pre_finite_inputs
import proofs.«156019_j41996190220783_2_alg».proof.Proof.KFrame
import proofs.«156019_j41996190220783_2_alg».proof.Proof.ValueI
import proofs.«156019_j41996190220783_2_alg».proof.Proof.Blocks
import proofs.«156019_j41996190220783_2_alg».proof.Proof.Blocks0
import proofs.«156019_j41996190220783_2_alg».proof.Proof.RefRun
import Idealize.ShloMosaic.Adequacy
import Idealize.ShloMosaic.Init

noncomputable section

namespace Cert.Proof

open Idealize.ShloMosaic Idealize.SL.Sem

/-- The idealized kernel's run: the result array at the specification array of the launch arrays, the arguments as
    launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1)
          = Cert.Spec.Garr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  Cert.KernelIdeal.Run.run_value m ρ (fun V c => Cert.KernelIdeal.Run.final0 V c) (fun V c => Cert.KernelIdeal.Run.final1 V c)
    (fun V c t => Cert.KernelIdeal.Run.cut_out1 V c t)

theorem frame_k : Cert.frame_Kernel := fun m ρ _ => Cert.Kernel.FrameProof.frame m ρ

theorem frame_ki : Cert.frame_KernelIdeal := fun m ρ _ =>
  (θ_run Cert.KernelIdeal.defs _ _).mono (fun _ h c => (h c).2) (kernel_run m ρ)

theorem frame_ri : Cert.frame_ReferenceIdeal := fun m ρ _ =>
  (θ_run Cert.ReferenceIdeal.defs _ _).mono (fun _ h c => (h c).2) (Cert.ReferenceIdeal.RefValue.run m ρ)

/-- Both idealized programs end with the specification array of their (agreeing) arguments. -/
theorem algebraic : Cert.algebraic_KernelIdeal_ReferenceIdeal := by
  intro m ρ m' ρ' _ hagree
  refine ⟨fun c => Cert.Spec.Garr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), kernel_run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
